-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 64
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .bf16⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .bf16⟩
  | .hbm, ⟨38, _⟩ => ⟨S1700000x128, .f32⟩
  | .hbm, ⟨39, _⟩ => ⟨S_, .f32⟩
  | .hbm, ⟨40, _⟩ => ⟨S100000x128, .f32⟩
  | .hbm, ⟨41, _⟩ => ⟨S1700000x1, .i32⟩
  | .hbm, ⟨42, _⟩ => ⟨S100000x128, .f32⟩
  | .hbm, ⟨43, _⟩ => ⟨S1x128, .f32⟩
  | .hbm, ⟨44, _⟩ => ⟨S100000x64, .bf16⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .bf16⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S128x64, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x64, .bf16⟩
  | .local _ .vmem, ⟨14, _⟩ => ⟨S5000x64, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .i1⟩
  | .hbm, ⟨77, _⟩ => ⟨S100000, .f32⟩
  | .hbm, ⟨78, _⟩ => ⟨S_, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S100000x64, .f32⟩
  | .hbm, ⟨103, _⟩ => ⟨S1700000x1, .f32⟩
  | .hbm, ⟨104, _⟩ => ⟨S_, .i32⟩
  | .hbm, ⟨105, _⟩ => ⟨S1700000, .i32⟩
  | .hbm, ⟨106, _⟩ => ⟨S1700000, .i1⟩
  | .hbm, ⟨107, _⟩ => ⟨S_, .i32⟩
  | .hbm, ⟨108, _⟩ => ⟨S1700000, .i32⟩
  | .hbm, ⟨109, _⟩ => ⟨S1700000, .i32⟩
  | .hbm, ⟨110, _⟩ => ⟨S1700000, .i32⟩
  | .hbm, ⟨111, _⟩ => ⟨S1700000x1, .i32⟩
  | .hbm, ⟨112, _⟩ => ⟨S1700000x64, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_call2_v0 : Ref sig .tc := ⟨.hbm, 79, rfl⟩
abbrev main_call2_v1 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel's run with its result named. @main is seven segments: three stretches of host operations, the
  first pallas_call, a stretch, the second pallas_call, a last stretch. Every weakly fair execution terminates, nothing
  faults, the arguments end as launched, and the result array ends at what the fold of the segments over the launch
  memory leaves in it: the last stretch's operations applied to the contents at the second region's exit.
-/
import proofs.«146426_j18915035972100_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the seven segments from the launch memory: the last thread state holds every unscoped buffer at the last
    boundary's contents, so the result array is read there, and each argument array walks back to the launch memory. -/
theorem run : θ_run defs (onTc (τ := τ) (main (F := F))) ⟨m, fun _ => 0, ρ⟩ (fun r => ∀ c : Dev nD,
      r.2.mem ((c.tc : Thread nD τ).loc main_v45) = W7 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v45 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.KSpec.lean ====
/-
  The idealized kernel's host-side arrays as functions of the arguments.

  From the edge list: the source and target index vectors (the edge rows with the self-loops 0 … N-1 appended), each also as
  a column and, with negative entries moved up by N, as the column a row gather reads; the degree, a segment sum of ones
  over the targets; the normaliser, 0 where the degree is not positive and its inverse square root where it is. From a
  table of per-node rows: its rows taken at the wrapped sources and segment-summed over the targets. And the result: row i
  of the second such sum scaled by the normaliser, plus the bias.
-/
import proofs.«146426_j18915035972100_2_alg».proof.Proof.Gen.KernelIdeal
import Idealize.ShloMosaic.PureOps.Ideal
import Idealize.ShloMosaic.Lib.ValueIdx

open scoped BigOperators

noncomputable section

namespace Cert.KernelIdeal.Stretch

open Cert.KernelIdeal Cert.KernelIdeal.Gen
open Idealize.ShloMosaic Idealize.ShloMosaic.ValueIdx

/-- The source indices: row 0 of the edge list, then 0 … N-1. -/
def srcOf (a1 : IVec S2x1600000 32) : IVec S1700000 32 :=
  concatenate S1700000 0 [⟨S1600000, shapeCast S1600000 (extractStridedSlice S1x1600000 ![0, 0] a1 slices_S2x1600000_S1x1600000_0_0) shapeCasts_S1x1600000_S1600000⟩, ⟨S100000, iotaInDim S100000 32 0⟩] concatenates_S1600000_S100000_S1700000_d0

/-- The target indices: row 1 of the edge list, then 0 … N-1. -/
def dstOf (a1 : IVec S2x1600000 32) : IVec S1700000 32 :=
  concatenate S1700000 0 [⟨S1600000, shapeCast S1600000 (extractStridedSlice S1x1600000 ![1, 0] a1 slices_S2x1600000_S1x1600000_1_0) shapeCasts_S1x1600000_S1600000⟩, ⟨S100000, iotaInDim S100000 32 0⟩] concatenates_S1600000_S100000_S1700000_d0

/-- An index vector as a column. -/
def colOf (v : IVec S1700000 32) : IVec S1700000x1 32 :=
  broadcastInDim S1700000x1 ![0] bcast_S1700000_S1700000x1_0 v

/-- An index vector with its negative entries moved up by N, as a column. -/
def wrapColOf (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The degree: a segment sum of ones over the targets. -/
def degOf (d : IVec S1700000 32) : FVec Ideal S100000 .f32 :=
  Host.scatterAdd (F := Ideal) scatter_S100000_S1700000x1_S1700000_n_0_0_1
    (broadcastInDim S100000 ![] bcast_S_S100000 (constant (F := Ideal) S_ .f32 0x00000000#32)) (colOf d)
    (broadcastInDim S1700000 ![] bcast_S_S1700000 (constant (F := Ideal) S_ .f32 0x3F800000#32))

/-- The normaliser: 0 where the degree is not positive, its inverse square root where it is. -/
def dinvOf (d : IVec S1700000 32) : FVec Ideal S100000 .f32 :=
  select (cmpf (F := Ideal) .ogt (degOf d) (broadcastInDim S100000 ![] bcast_S_S100000 (constant (F := Ideal) S_ .f32 0x00000000#32)))
    (Host.rsqrt (F := Ideal) (degOf d)) (broadcastInDim S100000 ![] bcast_S_S100000 (id (constant (F := Ideal) S_ .f32 0x00000000#32)))

/-- The normaliser as a column. -/
def dinvColOf (d : IVec S1700000 32) : FVec Ideal S100000x1 .f32 :=
  shapeCast S100000x1 (dinvOf d) shapeCasts_S100000_S100000x1

/-- The rows of a 128-column table at the wrapped sources, segment-summed over the targets into zeros. -/
def raw128 (H : FVec Ideal S100000x128 .bf16) (s d : IVec S1700000 32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32)) (colOf d)
    (extf .f32 (Host.gather gather_S100000x128_S1700000x1_S1700000x128_1_0_n_n_0_1_1128 H (wrapColOf s)) bitsLt_bf16_f32)

/-- The same for a 64-column table. -/
def raw64 (H : FVec Ideal S100000x64 .bf16) (s d : IVec S1700000 32) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32)) (colOf d)
    (extf .f32 (Host.gather gather_S100000x64_S1700000x1_S1700000x64_1_0_n_n_0_1_164 H (wrapColOf s)) bitsLt_bf16_f32)

/-- The bias as a one-row table. -/
def biasRow (b : FVec Ideal S128 .f32) : FVec Ideal S1x128 .f32 := shapeCast S1x128 b shapeCasts_S128_S1x128

/-- The result: row i of the second segment sum scaled by the normaliser, plus the bias. -/
def outOf (dcol : FVec Ideal S100000x1 .f32) (H : FVec Ideal S100000x64 .bf16) (s d : IVec S1700000 32)
    (b2 : FVec Ideal S64 .f32) : FVec Ideal S100000x64 .f32 :=
  addf (mulf (broadcastInDim S100000x64 ![0, 1] bcast_S100000x1_S100000x64_0_1 dcol) (raw64 H s d))
    (broadcastInDim S100000x64 ![0, 1] bcast_S1x64_S100000x64_0_1 (broadcastInDim S1x64 ![1] bcast_S64_S1x64_1 b2))

/-- What the two calls' outputs have to satisfy, entry by entry, as functions of the arguments. -/
structure Outputs (a0 : FVec Ideal S100000x128 .f32) (a1 : IVec S2x1600000 32) (a2 : FVec Ideal S128x128 .f32)
    (a3 : FVec Ideal S128 .f32) (a4 : FVec Ideal S128x64 .f32)
    (H1 : FVec Ideal S100000x128 .bf16) (H2 : FVec Ideal S100000x64 .bf16) : Prop where
  h1 : ∀ (r : Fin 100000) (j : Fin 128),
    H1 (ix2 r j) = (∑ k : Fin 128, a0 (ix2 r k) * a2 (ix2 k j)) * dinvColOf (dstOf a1) (ix2 r (0 : Fin 1))
  h2 : ∀ (r : Fin 100000) (j : Fin 64),
    H2 (ix2 r j) = (∑ k : Fin 128, max (raw128 H1 (srcOf a1) (dstOf a1) (ix2 r k) * dinvColOf (dstOf a1) (ix2 r (0 : Fin 1))
        + biasRow a3 (ix2 (0 : Fin 1) k)) 0 * a4 (ix2 k j)) * dinvColOf (dstOf a1) (ix2 r (0 : Fin 1))

end Cert.KernelIdeal.Stretch

end
-- ==== Proof.KHost.lean ====
/-
  The idealized kernel's host operations, read stretch by stretch.

  Before the first pallas_call the host builds, from the edge list, the source and target index vectors (the edge rows
  with the self-loops 0 … N-1 appended), the degree as a segment sum of ones over the targets, and the normaliser
  (0 where the degree is not positive, its inverse square root where it is) as a column. Between the two calls it takes
  the rows of the first call's output at the (wrapped) sources and segment-sums them over the targets; after the second
  call it does the same with that call's output, scales row i by the normaliser and adds the bias. Each buffer's contents
  at a segment boundary is the operations' composed term of the launch contents; a buffer no operation of a stretch
  writes, and no write-back of a call touches, keeps its contents.
-/
import proofs.«146426_j18915035972100_2_alg».proof.Proof.Gen.KernelIdeal.Frame
import proofs.«146426_j18915035972100_2_alg».proof.Proof.KSpec
import Idealize.ShloMosaic.Lib.StableHlo.Run
import Idealize.ShloMosaic.PureOps.Ideal

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first call's entry -/

set_option maxHeartbeats 4000000 in
theorem W3_v3 : W3 m ρ c (Proc.devRef .tc main_v3) = srcOf (W0 m ρ c (Proc.devRef .tc main_arg1)) := by
  dsimp only [W3, W2, W1, hostOps0, hostOps0_1, hostOps0_2]
  after_results_simp <;> rfl

set_option maxHeartbeats 4000000 in
theorem W3_v6 : W3 m ρ c (Proc.devRef .tc main_v6) = dstOf (W0 m ρ c (Proc.devRef .tc main_arg1)) := by
  dsimp only [W3, W2, W1, hostOps0, hostOps0_1, hostOps0_2]
  after_results_simp <;> rfl

/-- Two lines of host operations run one after the other are their concatenation run as one. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

/-- The normaliser column from a degree vector. -/
def normColOf (g : FVec Ideal S100000 .f32) : FVec Ideal S100000x1 .f32 :=
  shapeCast S100000x1
    (select (cmpf (F := Ideal) .ogt g (broadcastInDim S100000 ![] bcast_S_S100000 (constant (F := Ideal) S_ .f32 0x00000000#32)))
      (Host.rsqrt (F := Ideal) g) (broadcastInDim S100000 ![] bcast_S_S100000 (id (constant (F := Ideal) S_ .f32 0x00000000#32))))
    shapeCasts_S100000_S100000x1

theorem normColOf_deg (d : IVec S1700000 32) : normColOf (degOf d) = dinvColOf d := rfl

set_option maxHeartbeats 4000000 in
/-- The degree after the first thirteen host operations: the segment sum of ones over the targets. -/
theorem deg_after (V : Valuation τ sig (Elt Ideal)) :
    StableHlo.after ((hostOps0 (F := Ideal)).take 13) V (Proc.devRef .tc main_v10) = degOf (dstOf (V (Proc.devRef .tc main_arg1))) := by
  simp only [hostOps0, List.take_succ_cons, List.take_zero]
  unfold degOf colOf dstOf
  after_results_simp <;> rfl

set_option maxHeartbeats 4000000 in
/-- The rest of the way to the first call reads only the degree: the comparison with zero, the inverse square root, the
    select between it and zero, and the cast to a column. -/
theorem norm_after (U : Valuation τ sig (Elt Ideal)) :
    StableHlo.after (hostOps0_2 (F := Ideal)) (StableHlo.after (hostOps0_1 (F := Ideal))
        (StableHlo.after ((hostOps0 (F := Ideal)).drop 13) U)) (Proc.devRef .tc main_v15)
      = normColOf (U (Proc.devRef .tc main_v10)) := by
  simp only [hostOps0, hostOps0_1, hostOps0_2, List.drop_succ_cons, List.drop_zero]
  unfold normColOf
  after_results
  rfl

theorem W3_v15 : W3 m ρ c (Proc.devRef .tc main_v15) = dinvColOf (dstOf (W0 m ρ c (Proc.devRef .tc main_arg1))) := by
  show StableHlo.after hostOps0_2 (StableHlo.after hostOps0_1 (StableHlo.after hostOps0 (W0 m ρ c))) _ = _
  rw [← List.take_append_drop 13 (hostOps0 (F := Ideal)), after_append, norm_after, deg_after, normColOf_deg]

set_option maxHeartbeats 4000000 in
theorem W3_arg0 : W3 m ρ c (Proc.devRef .tc main_arg0) = W0 m ρ c (Proc.devRef .tc main_arg0) := by
  dsimp only [W3, W2, W1, hostOps0, hostOps0_1, hostOps0_2]
  after_results_simp <;> rfl

set_option maxHeartbeats 4000000 in
theorem W3_arg2 : W3 m ρ c (Proc.devRef .tc main_arg2) = W0 m ρ c (Proc.devRef .tc main_arg2) := by
  dsimp only [W3, W2, W1, hostOps0, hostOps0_1, hostOps0_2]
  after_results_simp <;> rfl

set_option maxHeartbeats 4000000 in
theorem W3_arg3 : W3 m ρ c (Proc.devRef .tc main_arg3) = W0 m ρ c (Proc.devRef .tc main_arg3) := by
  dsimp only [W3, W2, W1, hostOps0, hostOps0_1, hostOps0_2]
  after_results_simp <;> rfl

set_option maxHeartbeats 4000000 in
theorem W3_arg4 : W3 m ρ c (Proc.devRef .tc main_arg4) = W0 m ρ c (Proc.devRef .tc main_arg4) := by
  dsimp only [W3, W2, W1, hostOps0, hostOps0_1, hostOps0_2]
  after_results_simp <;> rfl

set_option maxHeartbeats 4000000 in
theorem W3_arg5 : W3 m ρ c (Proc.devRef .tc main_arg5) = W0 m ρ c (Proc.devRef .tc main_arg5) := by
  dsimp only [W3, W2, W1, hostOps0, hostOps0_1, hostOps0_2]
  after_results_simp <;> rfl

end Cert.KernelIdeal.Stretch

end
-- ==== Proof.KHost2.lean ====
/-
  The idealized kernel's later segments, read boundary by boundary: what the first pallas_call's write-backs and the
  stretch after it leave for the second call, what the second call's write-backs leave, and the last stretch's result.
  Between the calls the host takes the rows of the first call's output at the wrapped sources and segment-sums them over
  the targets; after the second call it does the same with that call's output, scales row i by the normaliser and adds
  the bias. Index vectors, the normaliser column and the arguments pass through every later segment unchanged.
-/
import proofs.«146426_j18915035972100_2_alg».proof.Proof.KHost

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first call's exit -/

theorem W4_v3 : W4 m ρ c (Proc.devRef .tc main_v3) = W3 m ρ c (Proc.devRef .tc main_v3) := W4_of_ne m ρ c main_v3 (by decide)
theorem W4_v6 : W4 m ρ c (Proc.devRef .tc main_v6) = W3 m ρ c (Proc.devRef .tc main_v6) := W4_of_ne m ρ c main_v6 (by decide)
theorem W4_arg3 : W4 m ρ c (Proc.devRef .tc main_arg3) = W3 m ρ c (Proc.devRef .tc main_arg3) := W4_of_ne m ρ c main_arg3 (by decide)
theorem W4_arg4 : W4 m ρ c (Proc.devRef .tc main_arg4) = W3 m ρ c (Proc.devRef .tc main_arg4) := W4_of_ne m ρ c main_arg4 (by decide)
theorem W4_arg5 : W4 m ρ c (Proc.devRef .tc main_arg5) = W3 m ρ c (Proc.devRef .tc main_arg5) := W4_of_ne m ρ c main_arg5 (by decide)
theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem W4_v16 : W4 m ρ c (Proc.devRef .tc main_v16) = (dat0 (V3 m ρ) c).arrAt 3 cfg0.N := W4_arr m ρ c 3

/-! ## At the second call's entry -/

set_option maxHeartbeats 4000000 in
theorem W5_v27 : W5 m ρ c (Proc.devRef .tc main_v27)
    = raw128 (W4 m ρ c (Proc.devRef .tc main_v16)) (W4 m ρ c (Proc.devRef .tc main_v3)) (W4 m ρ c (Proc.devRef .tc main_v6)) := by
  dsimp only [W5, hostOps1]
  unfold raw128 colOf wrapColOf
  after_results_simp <;> rfl

set_option maxHeartbeats 4000000 in
theorem W5_v28 : W5 m ρ c (Proc.devRef .tc main_v28) = biasRow (W4 m ρ c (Proc.devRef .tc main_arg3)) := by
  dsimp only [W5, hostOps1]
  unfold biasRow
  after_results_simp <;> rfl

set_option maxHeartbeats 4000000 in
theorem W5_v3 : W5 m ρ c (Proc.devRef .tc main_v3) = W4 m ρ c (Proc.devRef .tc main_v3) := by
  dsimp only [W5, hostOps1]
  after_results_simp <;> rfl
set_option maxHeartbeats 4000000 in
theorem W5_v6 : W5 m ρ c (Proc.devRef .tc main_v6) = W4 m ρ c (Proc.devRef .tc main_v6) := by
  dsimp only [W5, hostOps1]
  after_results_simp <;> rfl
set_option maxHeartbeats 4000000 in
theorem W5_v15 : W5 m ρ c (Proc.devRef .tc main_v15) = W4 m ρ c (Proc.devRef .tc main_v15) := by
  dsimp only [W5, hostOps1]
  after_results_simp <;> rfl
set_option maxHeartbeats 4000000 in
theorem W5_arg4 : W5 m ρ c (Proc.devRef .tc main_arg4) = W4 m ρ c (Proc.devRef .tc main_arg4) := by
  dsimp only [W5, hostOps1]
  after_results_simp <;> rfl
set_option maxHeartbeats 4000000 in
theorem W5_arg5 : W5 m ρ c (Proc.devRef .tc main_arg5) = W4 m ρ c (Proc.devRef .tc main_arg5) := by
  dsimp only [W5, hostOps1]
  after_results_simp <;> rfl

/-! ## At the second call's exit -/

theorem W6_v3 : W6 m ρ c (Proc.devRef .tc main_v3) = W5 m ρ c (Proc.devRef .tc main_v3) := W6_of_ne m ρ c main_v3 (by decide)
theorem W6_v6 : W6 m ρ c (Proc.devRef .tc main_v6) = W5 m ρ c (Proc.devRef .tc main_v6) := W6_of_ne m ρ c main_v6 (by decide)
theorem W6_arg5 : W6 m ρ c (Proc.devRef .tc main_arg5) = W5 m ρ c (Proc.devRef .tc main_arg5) := W6_of_ne m ρ c main_arg5 (by decide)
theorem W6_v15 : W6 m ρ c (Proc.devRef .tc main_v15) = W5 m ρ c (Proc.devRef .tc main_v15) :=
  (W6_arr m ρ c 2).trans (((dat1 (V5 m ρ) c).arrAt_in 2 rfl _).trans (A_eq1 (V5 m ρ) c 2))
theorem W6_v29 : W6 m ρ c (Proc.devRef .tc main_v29) = (dat1 (V5 m ρ) c).arrAt 4 cfg1.N := W6_arr m ρ c 4

/-! ## The result -/

set_option maxHeartbeats 4000000 in
theorem W7_v45 : W7 m ρ c (Proc.devRef .tc main_v45)
    = outOf (W6 m ρ c (Proc.devRef .tc main_v15)) (W6 m ρ c (Proc.devRef .tc main_v29)) (W6 m ρ c (Proc.devRef .tc main_v3)) (W6 m ρ c (Proc.devRef .tc main_v6))
        (W6 m ρ c (Proc.devRef .tc main_arg5)) := by
  dsimp only [W7, hostOps2]
  unfold outOf raw64 colOf wrapColOf
  after_results_simp <;> rfl

end Cert.KernelIdeal.Stretch

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region0.lean ====
/-
  Region 0 (the first layer's row-block kernel), as a function of the arrays the region finds.

  The kernel runs over 20 grid points; point t stages rows 5000·t … 5000·t + 4999 of the feature array
  [100000, 128] and of the scale column [100000, 1], the whole weight matrix [128, 128], and writes back rows
  5000·t … of the output [100000, 128]. On a block it computes (X · W) scaled row by row by the column. So the
  output array after the region is, entry by entry,

      out (r, j) = (∑ k, X (r, k) · W (k, j)) · s (r, 0),

  each row r being written by the one point r / 5000.
-/
import proofs.«146426_j18915035972100_2_alg».proof.Proof.Gen.KernelIdeal.Frame
import proofs.«146426_j18915035972100_2_alg».proof.Proof.LibDot
import proofs.«146426_j18915035972100_2_alg».proof.Proof.LibColumn
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The two offsets of a whole-block access are zero. -/
theorem hz : (![0, 0] : Fin 2 → Nat) = fun _ => 0 := funext fun a => by fin_cases a <;> rfl

/-! ## The block computation at an entry -/

/-- The product's dimension numbers contract the second axis of the left operand with the first of the right one. -/
theorem plain0 : Cert.LibDot.Plain dot_S5000x128_S128x128_S5000x128_1_0_0_1_n_n where
  hrank := rfl
  hs := rfl
  hl0 := fun j k => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  hl1 := fun j k => dot_S5000x128_S128x128_S5000x128_1_0_0_1_n_n.lhsIdx_val_of_single rfl j k
  hr0 := fun j k => dot_S5000x128_S128x128_S5000x128_1_0_0_1_n_n.rhsIdx_val_of_single rfl j k
  hr1 := fun j k => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- What a point stores, at row p and column q of its block: the row of the feature block times the column of the
    weights, scaled by the row's entry of the column block. (Rounding to the narrower format is the identity on
    the extended reals.) -/
theorem pay0_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  rw [truncf_apply, mulf_apply, shapeCast_self, broadcastTo_a1_ab_apply, Cert.LibDot.matmul_ix2 plain0]
  rfl

/-! ## From blocks to the array -/

/-- The output array as one function of the three arrays the region reads: entry (r, j) is row r of the features
    times column j of the weights, scaled by the column's entry at row r. -/
def G0 (a0 : S100000x128.Idx → EReal) (a2 : S128x128.Idx → EReal) (a15 : S100000x1.Idx → EReal) :
    S100000x128.Idx → EReal := fun i =>
  (∑ k : Fin 128, a0 (ix2 (⟨(i 0).val, (i 0).isLt⟩ : Fin 100000) k) * a2 (ix2 k (⟨(i 1).val, (i 1).isLt⟩ : Fin 128)))
    * a15 (ix2 (⟨(i 0).val, (i 0).isLt⟩ : Fin 100000) (0 : Fin 1))

theorem G0_ix2 (a0 : S100000x128.Idx → EReal) (a2 : S128x128.Idx → EReal) (a15 : S100000x1.Idx → EReal)
    (r : Fin 100000) (j : Fin 128) :
    G0 a0 a2 a15 (ix2 r j) = (∑ k : Fin 128, a0 (ix2 r k) * a2 (ix2 k j)) * a15 (ix2 r (0 : Fin 1)) := rfl

/-- Row p of the block of grid point t is row 5000·t + p of the array. -/
def row0 (t : Fin cfg0.N) (p : Fin 5000) : Fin 100000 :=
  ⟨t.val * 5000 + p.val, by have ht : t.val < 20 := lt_of_lt_of_eq t.isLt N_0; have := p.isLt; omega⟩

/-- The index maps over the grid, decided: the three row-blocked windows are at block t on the row axis and block 0
    on the column axis; the weights' window is the whole matrix at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- The feature block of point t at (p, k) is the features at (5000·t + p, k). -/
theorem blk0_0 (c : Dev nD) (t : Fin cfg0.N) (p : Fin 5000) (k : Fin 128) :
    iblk0 (F := Ideal) V c 0 t (ix2 p k) = V c main_arg0 (ix2 (row0 t p) k) := by
  obtain ⟨e0, e1, -⟩ := idx_facts0 t
  show V c main_arg0 (((cfg0.win 0).blk t).view.emb (ix2 p k)) = V c main_arg0 (ix2 (row0 t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weights' block of any point is the weights. -/
theorem blk0_1 (c : Dev nD) (t : Fin cfg0.N) (k : Fin 128) (q : Fin 128) :
    iblk0 (F := Ideal) V c 1 t (ix2 k q) = V c main_arg2 (ix2 k q) := by
  obtain ⟨-, -, e0, e1, -⟩ := idx_facts0 t
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The column block of point t at (p, 0) is the column at (5000·t + p, 0). -/
theorem blk0_2 (c : Dev nD) (t : Fin cfg0.N) (p : Fin 5000) :
    iblk0 (F := Ideal) V c 2 t (ix2 p (0 : Fin 1)) = V c main_v15 (ix2 (row0 t p) (0 : Fin 1)) := by
  obtain ⟨-, -, -, -, e0, e1, -⟩ := idx_facts0 t
  show V c main_v15 (((cfg0.win 2).blk t).view.emb (ix2 p (0 : Fin 1))) = V c main_v15 (ix2 (row0 t p) (0 : Fin 1))
  refine congrArg _ (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- Entry (p, q) of the output block of point t is entry (5000·t + p, q) of the array. -/
theorem emb0_3 (t : Fin cfg0.N) (p : Fin 5000) (q : Fin 128) :
    ((cfg0.win 3).blk t).view.emb (ix2 p q) = ix2 (row0 t p) q := by
  obtain ⟨-, -, -, -, -, -, e0, e1⟩ := idx_facts0 t
  refine funext fun a => Fin.ext ?_
  match a with
  | ⟨0, _⟩ => show win0_3.index t (0 : Fin 2) * 5000 + 1 * p.val = t.val * 5000 + p.val; omega
  | ⟨1, _⟩ => show win0_3.index t (1 : Fin 2) * 128 + 1 * q.val = q.val; omega

/-- What point t writes back is block t of the one function `G0` of the arrays the region finds. -/
theorem flushed0_eq (c : Dev nD) (t : Fin cfg0.N) :
    (dat0 (F := Ideal) V c).flushed 3 t
      = ((cfg0.win 3).blk t).view.read (Elt Ideal) (G0 (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  refine funext fun (y : S5000x128.Idx) => ?_
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (ix2 p q)
    = G0 (V c main_arg0) (V c main_arg2) (V c main_v15) (((cfg0.win 3).blk t).view.emb (ix2 p q))
  refine (pay0_apply (iblk0 V c 0 t) (iblk0 V c 1 t) (iblk0 V c 2 t) p q).trans ?_
  rw [emb0_3, G0_ix2, blk0_2]
  refine congrArg (· * _) (Finset.sum_congr rfl fun k _ => ?_)
  rw [blk0_0, blk0_1]

/-- An index of the array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Every entry of the array is in the block of a point that writes back: row r is in block r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 := ⟨⟨(i 0).val / 5000, by show _ < grid0.N; omega⟩, rfl⟩
  obtain ⟨-, -, -, -, -, -, e0, e1⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array after the region's 20 write-backs is `G0` of the arrays the region finds. -/
theorem array0 (c : Dev nD) :
    (dat0 (F := Ideal) V c).arrAt 3 cfg0.N = G0 (V c main_arg0) (V c main_arg2) (V c main_v15) :=
  (dat0 V c).arrAt_eq_of_cover 3 _ (fun t _ => flushed0_eq V c t) cover0

/-- Entry (r, j) of the output array after the region, as `G0` of the arrays the region finds (`G0_ix2` reads it). -/
theorem value0 (c : Dev nD) (r : Fin 100000) (j : Fin 128) :
    (dat0 (F := Ideal) V c).arrAt 3 cfg0.N (ix2 r j) = G0 (V c main_arg0) (V c main_arg2) (V c main_v15) (ix2 r j) :=
  congrFun (array0 V c) (ix2 r j)

/-- Entry (r, j) of the output array after the region, the three arrays the region finds named: row r of the features
    times column j of the weights, scaled by the column's entry at row r. -/
theorem value0_of (c : Dev nD) {a0 : S100000x128.Idx → EReal} {a2 : S128x128.Idx → EReal} {a15 : S100000x1.Idx → EReal}
    (h0 : V c main_arg0 = a0) (h2 : V c main_arg2 = a2) (h15 : V c main_v15 = a15) (r : Fin 100000) (j : Fin 128) :
    (dat0 (F := Ideal) V c).arrAt 3 cfg0.N (ix2 r j)
      = (∑ k : Fin 128, a0 (ix2 r k) * a2 (ix2 k j)) * a15 (ix2 r (0 : Fin 1)) := by
  subst h0 h2 h15
  exact (value0 V c r j).trans (G0_ix2 _ _ _ r j)

end

end Cert.KernelIdeal.RegionValue

end
-- ==== Proof.Region1.lean ====
/-
  Region 1 (the second layer's row-block kernel), as a function of the arrays the region finds.

  The kernel runs over 20 grid points; point t stages rows 5000·t … 5000·t + 4999 of the aggregated array
  [100000, 128] and of the scale column [100000, 1], the whole weight matrix [128, 64] and the whole bias row
  [1, 128], and writes back rows 5000·t … of the output [100000, 64]. On a block it scales each row by the column,
  adds the bias row, clamps below at zero, multiplies by the weights and scales each row by the column again. So
  the output array after the region is, entry by entry,

      out (r, j) = (∑ k, max (A (r, k) · s (r, 0) + b (0, k)) 0 · W (k, j)) · s (r, 0),

  each row r being written by the one point r / 5000.
-/
import proofs.«146426_j18915035972100_2_alg».proof.Proof.Gen.KernelIdeal.Frame
import proofs.«146426_j18915035972100_2_alg».proof.Proof.LibDot
import proofs.«146426_j18915035972100_2_alg».proof.Proof.LibColumn
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The two offsets of a whole-block access are zero. -/
theorem hz1 : (![0, 0] : Fin 2 → Nat) = fun _ => 0 := funext fun a => by fin_cases a <;> rfl

/-! ## The block computation at an entry -/

/-- The product's dimension numbers contract the second axis of the left operand with the first of the right one. -/
theorem plain1 : Cert.LibDot.Plain dot_S5000x128_S128x64_S5000x64_1_0_0_1_n_n where
  hrank := rfl
  hs := rfl
  hl0 := fun j k => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  hl1 := fun j k => dot_S5000x128_S128x64_S5000x64_1_0_0_1_n_n.lhsIdx_val_of_single rfl j k
  hr0 := fun j k => dot_S5000x128_S128x64_S5000x64_1_0_0_1_n_n.rhsIdx_val_of_single rfl j k
  hr1 := fun j k => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl

/-- What a point stores, at row p and column q of its block: the row of the aggregated block, scaled by the row's
    entry of the column block, shifted by the bias row and clamped below at zero, times the column of the weights,
    scaled by the row's entry of the column block. (Rounding to the narrower format is the identity on the extended
    reals; the clamp's constant is the zero word.) -/
theorem pay1_apply (v0 : Vec Ideal S5000x128 .f32) (v2 : Vec Ideal S5000x1 .f32) (v6 : Vec Ideal S1x128 .f32)
    (v13 : Vec Ideal S128x64 .f32) (v16 : Vec Ideal S5000x1 .f32) (p : Fin 5000) (q : Fin 64) :
    k1_pay1 v0 v2 v6 v13 v16 (ix2 p q)
      = (∑ k : Fin 128, max (v0 (ix2 p k) * v2 (ix2 p (0 : Fin 1)) + v6 (ix2 (0 : Fin 1) k)) 0 * v13 (ix2 k q))
        * v16 (ix2 p (0 : Fin 1)) := by
  unfold k1_pay1
  simp only [shapeCast_self]
  rw [truncf_apply, mulf_apply, broadcastTo_a1_ab_apply, Cert.LibDot.matmul_ix2 plain1]
  refine congrArg (· * _) (Finset.sum_congr rfl fun k _ => ?_)
  rw [truncf_apply, truncf_apply, maximumf_apply, addf_apply, mulf_apply, broadcast_apply, broadcastTo_a1_ab_apply,
    broadcastTo_1b_ab_apply]
  rw [show Scalar.ofBits (F := Ideal) .f32 0x00000000#32 = (0 : EReal) from Ideal.ofBits_zero_f32]

/-! ## From blocks to the array -/

/-- The output array as one function of the four arrays the region reads: entry (r, j) is row r of the aggregated
    array scaled by the column's entry at row r, shifted by the bias row and clamped below at zero, times column j
    of the weights, scaled by the column's entry at row r. -/
def G1 (a27 : S100000x128.Idx → EReal) (a4 : S128x64.Idx → EReal) (a15 : S100000x1.Idx → EReal)
    (a28 : S1x128.Idx → EReal) : S100000x64.Idx → EReal := fun i =>
  (∑ k : Fin 128, max (a27 (ix2 (⟨(i 0).val, (i 0).isLt⟩ : Fin 100000) k)
        * a15 (ix2 (⟨(i 0).val, (i 0).isLt⟩ : Fin 100000) (0 : Fin 1)) + a28 (ix2 (0 : Fin 1) k)) 0
      * a4 (ix2 k (⟨(i 1).val, (i 1).isLt⟩ : Fin 64)))
    * a15 (ix2 (⟨(i 0).val, (i 0).isLt⟩ : Fin 100000) (0 : Fin 1))

theorem G1_ix2 (a27 : S100000x128.Idx → EReal) (a4 : S128x64.Idx → EReal) (a15 : S100000x1.Idx → EReal)
    (a28 : S1x128.Idx → EReal) (r : Fin 100000) (j : Fin 64) :
    G1 a27 a4 a15 a28 (ix2 r j)
      = (∑ k : Fin 128, max (a27 (ix2 r k) * a15 (ix2 r (0 : Fin 1)) + a28 (ix2 (0 : Fin 1) k)) 0 * a4 (ix2 k j))
        * a15 (ix2 r (0 : Fin 1)) := rfl

/-- Row p of the block of grid point t is row 5000·t + p of the array. -/
def row1 (t : Fin cfg1.N) (p : Fin 5000) : Fin 100000 :=
  ⟨t.val * 5000 + p.val, by have ht : t.val < 20 := lt_of_lt_of_eq t.isLt N_1; have := p.isLt; omega⟩

/-- The index maps over the grid, decided: the three row-blocked windows are at block t on the row axis and block 0
    on the column axis; the weights' and the bias row's windows are the whole arrays at every point. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- The aggregated block of point t at (p, k) is the aggregated array at (5000·t + p, k). -/
theorem blk1_0 (c : Dev nD) (t : Fin cfg1.N) (p : Fin 5000) (k : Fin 128) :
    iblk1 (F := Ideal) V c 0 t (ix2 p k) = V c main_v27 (ix2 (row1 t p) k) := by
  obtain ⟨e0, e1, -⟩ := idx_facts1 t
  show V c main_v27 (((cfg1.win 0).blk t).view.emb (ix2 p k)) = V c main_v27 (ix2 (row1 t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The weights' block of any point is the weights. -/
theorem blk1_1 (c : Dev nD) (t : Fin cfg1.N) (k : Fin 128) (q : Fin 64) :
    iblk1 (F := Ideal) V c 1 t (ix2 k q) = V c main_arg4 (ix2 k q) := by
  obtain ⟨-, -, e0, e1, -⟩ := idx_facts1 t
  show V c main_arg4 (((cfg1.win 1).blk t).view.emb (ix2 k q)) = V c main_arg4 (ix2 k q)
  refine congrArg _ (funext fun a => Fin.ext ?_)
  match a with
  | ⟨0, _⟩ => show win1_1.index t (0 : Fin 2) * 128 + 1 * k.val = k.val; omega
  | ⟨1, _⟩ => show win1_1.index t (1 : Fin 2) * 64 + 1 * q.val = q.val; omega

/-- The column block of point t at (p, 0) is the column at (5000·t + p, 0). -/
theorem blk1_2 (c : Dev nD) (t : Fin cfg1.N) (p : Fin 5000) :
    iblk1 (F := Ideal) V c 2 t (ix2 p (0 : Fin 1)) = V c main_v15 (ix2 (row1 t p) (0 : Fin 1)) := by
  obtain ⟨-, -, -, -, e0, e1, -⟩ := idx_facts1 t
  show V c main_v15 (((cfg1.win 2).blk t).view.emb (ix2 p (0 : Fin 1))) = V c main_v15 (ix2 (row1 t p) (0 : Fin 1))
  refine congrArg _ (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

/-- The bias row's block of any point is the bias row. -/
theorem blk1_3 (c : Dev nD) (t : Fin cfg1.N) (k : Fin 128) :
    iblk1 (F := Ideal) V c 3 t (ix2 (0 : Fin 1) k) = V c main_v28 (ix2 (0 : Fin 1) k) := by
  obtain ⟨-, -, -, -, -, -, e0, e1, -⟩ := idx_facts1 t
  show V c main_v28 (((cfg1.win 3).blk t).view.emb (ix2 (0 : Fin 1) k)) = V c main_v28 (ix2 (0 : Fin 1) k)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

/-- Entry (p, q) of the output block of point t is entry (5000·t + p, q) of the array. -/
theorem emb1_4 (t : Fin cfg1.N) (p : Fin 5000) (q : Fin 64) :
    ((cfg1.win 4).blk t).view.emb (ix2 p q) = ix2 (row1 t p) q := by
  obtain ⟨-, -, -, -, -, -, -, -, e0, e1⟩ := idx_facts1 t
  refine funext fun a => Fin.ext ?_
  match a with
  | ⟨0, _⟩ => show win1_4.index t (0 : Fin 2) * 5000 + 1 * p.val = t.val * 5000 + p.val; omega
  | ⟨1, _⟩ => show win1_4.index t (1 : Fin 2) * 64 + 1 * q.val = q.val; omega

/-- What point t writes back is block t of the one function `G1` of the arrays the region finds. -/
theorem flushed1_eq (c : Dev nD) (t : Fin cfg1.N) :
    (dat1 (F := Ideal) V c).flushed 4 t
      = ((cfg1.win 4).blk t).view.read (Elt Ideal) (G1 (V c main_v27) (V c main_arg4) (V c main_v15) (V c main_v28)) := by
  show (cfg1.win 4).cut (grid1.coords t) ((dat1 V c).after 4 t) = _
  rw [after1_4]
  unfold out1_4
  rw [View.canon_unit_zero hz1]
  simp only [View.ld_unit_zero (S := S5000x128) hz1, View.ld_unit_zero (S := S128x64) hz1,
    View.ld_unit_zero (S := S5000x1) hz1, View.ld_unit_zero (S := S1x128) hz1]
  refine funext fun (y : S5000x64.Idx) => ?_
  obtain ⟨p, q, rfl⟩ : ∃ (p : Fin 5000) (q : Fin 64), y = ix2 p q := ⟨y 0, y 1, eq_ix2 y⟩
  show k1_pay1 (iblk1 V c 0 t) (iblk1 V c 2 t) (iblk1 V c 3 t) (iblk1 V c 1 t) (iblk1 V c 2 t) (ix2 p q)
    = G1 (V c main_v27) (V c main_arg4) (V c main_v15) (V c main_v28) (((cfg1.win 4).blk t).view.emb (ix2 p q))
  refine (pay1_apply (iblk1 V c 0 t) (iblk1 V c 2 t) (iblk1 V c 3 t) (iblk1 V c 1 t) (iblk1 V c 2 t) p q).trans ?_
  rw [emb1_4, G1_ix2, blk1_2]
  refine congrArg (· * _) (Finset.sum_congr rfl fun k _ => ?_)
  rw [blk1_0, blk1_1, blk1_3]

/-- An index of the array is in point t's block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v29).slice (win1_4.rect t)).set ↔ _
  rw [View.set_slice_whole, Rect.mem_set_unit]
  exact Iff.rfl

/-- Every entry of the array is in the block of a point that writes back: row r is in block r / 5000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 20 := N_1
  obtain ⟨t, ht⟩ : ∃ t : Fin cfg1.N, t.val = (i 0).val / 5000 := ⟨⟨(i 0).val / 5000, by show _ < grid1.N; omega⟩, rfl⟩
  obtain ⟨-, -, -, -, -, -, -, -, e0, e1⟩ := idx_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- The output array after the region's 20 write-backs is `G1` of the arrays the region finds. -/
theorem array1 (c : Dev nD) :
    (dat1 (F := Ideal) V c).arrAt 4 cfg1.N = G1 (V c main_v27) (V c main_arg4) (V c main_v15) (V c main_v28) :=
  (dat1 V c).arrAt_eq_of_cover 4 _ (fun t _ => flushed1_eq V c t) cover1

/-- Entry (r, j) of the output array after the region, as `G1` of the arrays the region finds (`G1_ix2` reads it). -/
theorem value1 (c : Dev nD) (r : Fin 100000) (j : Fin 64) :
    (dat1 (F := Ideal) V c).arrAt 4 cfg1.N (ix2 r j)
      = G1 (V c main_v27) (V c main_arg4) (V c main_v15) (V c main_v28) (ix2 r j) :=
  congrFun (array1 V c) (ix2 r j)

/-- Entry (r, j) of the output array after the region, the four arrays the region finds named: row r of the aggregated
    array scaled by the column's entry at row r, shifted by the bias row and clamped below at zero, times column j of
    the weights, scaled by the column's entry at row r. -/
theorem value1_of (c : Dev nD) {a27 : S100000x128.Idx → EReal} {a4 : S128x64.Idx → EReal} {a15 : S100000x1.Idx → EReal}
    {a28 : S1x128.Idx → EReal} (h27 : V c main_v27 = a27) (h4 : V c main_arg4 = a4) (h15 : V c main_v15 = a15)
    (h28 : V c main_v28 = a28) (r : Fin 100000) (j : Fin 64) :
    (dat1 (F := Ideal) V c).arrAt 4 cfg1.N (ix2 r j)
      = (∑ k : Fin 128, max (a27 (ix2 r k) * a15 (ix2 r (0 : Fin 1)) + a28 (ix2 (0 : Fin 1) k)) 0 * a4 (ix2 k j))
        * a15 (ix2 r (0 : Fin 1)) := by
  subst h27 h4 h15 h28
  exact (value1 V c r j).trans (G1_ix2 _ _ _ _ r j)

end

end Cert.KernelIdeal.RegionValue

end
-- ==== Proof.KValue.lean ====
/-
  The idealized kernel's result as one term of the arguments.

  The fold of the segments is read back to front: the last stretch's result over the second call's output, that output
  (entry by entry) over the segment sum between the calls, that sum over the first call's output, and the first call's
  output (entry by entry) over the arguments and the normaliser column. The two calls' outputs are named H1 and H2 and
  characterised entry by entry: H1 is x·W1 with row r scaled by the normaliser; H2 is relu(raw·dinv + b1)·W2 with row r
  scaled by the normaliser, raw being the segment sum of H1's rows.
-/
import proofs.«146426_j18915035972100_2_alg».proof.Proof.KHost2
import proofs.«146426_j18915035972100_2_alg».proof.Proof.Region0
import proofs.«146426_j18915035972100_2_alg».proof.Proof.Region1

set_option maxRecDepth 16384

open scoped BigOperators

noncomputable section

namespace Cert.KernelIdeal.Stretch

open Cert.KernelIdeal Cert.KernelIdeal.Gen Cert.KernelIdeal.RegionValue
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The result array after the run, over the two calls' outputs. -/
theorem kernel_value :
    ∃ (H1 : FVec Ideal S100000x128 .bf16) (H2 : FVec Ideal S100000x64 .bf16),
      Outputs (W0 m ρ c (Proc.devRef .tc main_arg0)) (W0 m ρ c (Proc.devRef .tc main_arg1)) (W0 m ρ c (Proc.devRef .tc main_arg2))
        (W0 m ρ c (Proc.devRef .tc main_arg3)) (W0 m ρ c (Proc.devRef .tc main_arg4)) H1 H2
      ∧ W7 m ρ c (Proc.devRef .tc main_v45)
          = outOf (dinvColOf (dstOf (W0 m ρ c (Proc.devRef .tc main_arg1)))) H2 (srcOf (W0 m ρ c (Proc.devRef .tc main_arg1)))
              (dstOf (W0 m ρ c (Proc.devRef .tc main_arg1))) (W0 m ρ c (Proc.devRef .tc main_arg5)) := by
  refine ⟨W4 m ρ c (Proc.devRef .tc main_v16), W6 m ρ c (Proc.devRef .tc main_v29), ⟨?_, ?_⟩, ?_⟩
  · intro r j
    rw [W4_v16]
    exact value0_of (V3 m ρ) c (W3_arg0 m ρ c) (W3_arg2 m ρ c) (W3_v15 m ρ c) r j
  · intro r j
    rw [W6_v29]
    refine value1_of (V5 m ρ) c ?_ ((W5_arg4 m ρ c).trans ((W4_arg4 m ρ c).trans (W3_arg4 m ρ c)))
      ((W5_v15 m ρ c).trans ((W4_v15 m ρ c).trans (W3_v15 m ρ c)))
      ((W5_v28 m ρ c).trans (by rw [W4_arg3, W3_arg3])) r j
    rw [show V5 m ρ c main_v27 = W5 m ρ c (Proc.devRef .tc main_v27) from rfl, W5_v27, W4_v3, W4_v6, W3_v3, W3_v6]
  · rw [W7_v45, W6_v15, W5_v15, W4_v15, W3_v15, W6_v3, W5_v3, W4_v3, W3_v3, W6_v6, W5_v6, W4_v6, W3_v6, W6_arg5, W5_arg5,
      W4_arg5, W3_arg5]

end Cert.KernelIdeal.Stretch

end
-- ==== Proof.LibGatherRows.lean ====
/-
  Taking rows of a table by an index column, read at an entry. The operand is a table [N, C] (or a vector [N]), the
  start indices a column [E, 1], and the dimension numbers are those of `table[idx]`: the row axis collapsed and named by
  the one start-index component, the column axis (if any) the one offset axis. Entry (e, c) of the result is the
  table's entry (r, c) with r the start index idx[e, 0] read as a signed integer and clamped into [0, N - 1]; for a
  vector, entry e is the vector's entry r. The row r is the SAME function of idx and e in both, so taking rows
  commutes with any operation that acts row by row. Stated for any record with those dimension numbers.
-/
import Idealize.ShloMosaic.Lib.ValueIdx
import Idealize.ShloMosaic.PureOps.ShapeOps

namespace Cert.LibGatherRows

open Idealize.ShloMosaic Idealize.ShloMosaic.ValueIdx

/-- The row that start index `idx[e, 0]` names in a table of `N` rows: read signed, clamped into `[0, N - 1]`. -/
def row {N E w : Nat} (hN : 0 < N) (idx : IVec ⟨2, ![E, 1]⟩ w) (e : Fin E) : Fin N :=
  ⟨min (idx (ix2 e (0 : Fin 1))).toInt.toNat (N - 1), by omega⟩

/-- Rows of a table: result entry `(e, c)` reads the operand at `(row idx e, c)`. -/
theorem rows_operandIdx {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (row hN idx e) c := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = _
    rw [GatherDims.batchCoord_eq_zero _ _ _ List.not_mem_nil]
    unfold GatherDims.start
    rw [dif_neg (show ¬ ((1 : Fin 2) ∈ ([0] : List (Fin 2))) by decide)]
    simp only [Nat.add_zero, Nat.zero_add]
    unfold GatherDims.offCoord
    rw [dif_pos ((GatherDims.mem_sKept _ _).mpr ⟨(show ¬ ((1 : Fin 2) ∈ ([0] : List (Fin 2))) by decide), List.not_mem_nil⟩)]
    rfl

/-- Entries of a vector: result entry `e` reads the operand at `row idx e`. -/
theorem elems_operandIdx {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (row hN idx e) := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl

/-- The table's rows taken, at entry `(e, c)`. -/
theorem gather_rows_apply {α : Type} {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (c : Fin C) :
    Host.gather d x idx (ix2 e c) = x (ix2 (row hN idx e) c) := by
  unfold Host.gather
  rw [rows_operandIdx hN d h1 h2 h3 h4 h5 h6 h7 idx e c]

/-- The vector's entries taken, at entry `e`. -/
theorem gather_elems_apply {α : Type} {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (row hN idx e)) := by
  unfold Host.gather
  rw [elems_operandIdx hN d h1 h2 h3 h4 h5 h6 h7 idx e]

end Cert.LibGatherRows
-- ==== Proof.LibRealMask.lean ====
/-
  Masks as Booleans, and comparisons and roots of real numbers, on the extended reals.
  A one-bit mask built from comparisons is the bit of a Boolean: "and" of two such bits is the bit of the conjunction, "not" the bit
  of the negation, and a select on such a bit is an if on the Boolean. A comparison of two real numbers read on the extended reals is
  the bit of the real comparison. The square root of a non-negative real is its real square root; the inverse square root of a
  positive real is the inverse of its real square root, so a positive real times its inverse square root is its square root.
  Two natural numbers below 2^32, as 32-bit words, are equal exactly when the numbers are.
-/
import Mathlib
import Idealize.ShloMosaic.Lib.ValueIdx
import Idealize.ShloMosaic.PureOps.Ideal.Laws

noncomputable section

namespace Cert.LibRealMask

open Idealize.ShloMosaic

/-- A select on the bit of a Boolean is an if on the Boolean. -/
theorem sel_bool {α : Type} (a : Bool) (u v : α) : Scalar.select (BitVec.ofBool a) u v = if a = true then u else v := by
  cases a <;> rfl

/-- The "and" of two Booleans' bits is the bit of their conjunction. -/
theorem and_bool (a b : Bool) : IntOp.andi (BitVec.ofBool a) (BitVec.ofBool b) = BitVec.ofBool (a && b) := by
  cases a <;> cases b <;> rfl

/-- The complement of a Boolean's bit is the bit of its negation. -/
theorem not_bool (a : Bool) : ~~~(BitVec.ofBool a) = BitVec.ofBool (!a) := by cases a <;> rfl

/-- "Less than" between two reals, read on the extended reals. -/
theorem cmp_olt_coe (a b : ℝ) : Ideal.cmp .olt (a : EReal) (b : EReal) = BitVec.ofBool (decide (a < b)) := by
  simp only [Ideal.cmp, EReal.coe_lt_coe_iff]

/-- "Greater than" between two reals, read on the extended reals. -/
theorem cmp_ogt_coe (a b : ℝ) : Ideal.cmp .ogt (a : EReal) (b : EReal) = BitVec.ofBool (decide (b < a)) := by
  simp only [Ideal.cmp, EReal.coe_lt_coe_iff]

/-- The square root of a non-negative real. -/
theorem sqrt_coe (r : ℝ) (h : 0 ≤ r) : Ideal.sqrt (r : EReal) = ((Real.sqrt r : ℝ) : EReal) := by
  show (if r < 0 then (⊥ : EReal) else (Real.sqrt r : EReal)) = _
  rw [if_neg (not_lt.mpr h)]

/-- The inverse square root of a positive real. -/
theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- A positive real times its inverse square root is its square root. -/
theorem mul_rsqrt_coe (r : ℝ) (h : 0 < r) : ((r : ℝ) : EReal) * Ideal.rsqrt (r : EReal) = ((Real.sqrt r : ℝ) : EReal) := by
  rw [rsqrt_coe r h, ← EReal.coe_mul]
  congr 1
  have hpos : 0 < Real.sqrt r := Real.sqrt_pos.mpr h
  rw [mul_inv_eq_iff_eq_mul₀ hpos.ne']
  exact (Real.mul_self_sqrt h.le).symm

/-- Two naturals below 2^32, as 32-bit words, are equal exactly when the numbers are. -/
theorem word_eq_of_lt (i j : ℕ) (hi : i < 2 ^ 32) (hj : j < 2 ^ 32) :
    IntOp.cmpi .eq (BitVec.ofNat 32 i) (BitVec.ofNat 32 j) = BitVec.ofBool (decide (i = j)) := by
  simp only [IntOp.cmpi]
  congr 1
  rw [Bool.eq_iff_iff, beq_iff_eq, decide_eq_true_iff]
  constructor
  · intro h
    have := congrArg BitVec.toNat h
    simp only [BitVec.toNat_ofNat] at this
    omega
  · intro h; rw [h]

end Cert.LibRealMask

end
-- ==== Proof.LibWrapRow.lean ====
/-
  An index that lands on a row is that row after wrapping and clamping.

  A segment sum sends update row e to the operand row its index names when the index, read as a signed integer and not
  clamped, is a row number p. A row gather first moves a negative index up by the number of rows and then clamps it into
  range. An index equal to a row number p is not negative and is in range, so both leave it alone: the gathered row is p.
-/
import Mathlib
import proofs.«146426_j18915035972100_2_alg».proof.Proof.LibGatherRows
import proofs.«146426_j18915035972100_2_alg».proof.Proof.LibRealMask
import Idealize.ShloMosaic.Lib.ValueIdx

namespace Cert.LibWrapRow

open Idealize.ShloMosaic Idealize.ShloMosaic.ValueIdx

theorem row_of_hit {E N : ℕ} (hN : 0 < N) (wcol : IVec ⟨2, ![E, 1]⟩ 32) (d t : BitVec 32) (e : Fin E)
    (hw : wcol (ix2 e (0 : Fin 1)) = Scalar.select (IntOp.cmpi .slt d 0#32) t d)
    (p : Fin N) (h : d.toInt = (p.val : Int)) : LibGatherRows.row hN wcol e = p := by
  have hs : IntOp.cmpi .slt d 0#32 = BitVec.ofBool false := by
    simp only [IntOp.cmpi]
    congr 1
    rw [Bool.eq_false_iff]
    intro hlt
    rw [BitVec.slt_iff_toInt_lt, h] at hlt
    simp at hlt
    omega
  apply Fin.ext
  show min (wcol (ix2 e (0 : Fin 1))).toInt.toNat (N - 1) = p.val
  rw [hw, hs, LibRealMask.sel_bool, if_neg (by simp), h]
  have := p.isLt
  simp only [Int.toNat_natCast]
  omega

end Cert.LibWrapRow
-- ==== Proof.LibScatterAddRows.lean ====
/-
  A scatter-add of rows into a table, read at an entry. The operand is a table [N, C] (or a vector [N]), the scatter
  indices a column [E, 1], the updates [E, C] (or [E]), and the dimension numbers are those of a segment sum: the row
  axis is the one inserted window axis and the one the start index names, the column axis (if any) the one window axis.
  Update row e lands on operand row p exactly when its start index idx[e, 0], read as a signed integer and NOT clamped,
  equals p; it is dropped otherwise. So on the extended reals entry (p, k) of the result is the operand's entry plus
  the sum over the update rows e with idx[e, 0] = p of the update's entry (e, k). Stated for any record with those
  dimension numbers, whatever the number of updates.
-/
import Idealize.ShloMosaic.Lib.ValueIdx
import Idealize.ShloMosaic.PureOps.Ideal

noncomputable section

open scoped BigOperators

namespace Cert.LibScatterAddRows

open Idealize.ShloMosaic Idealize.ShloMosaic.ValueIdx

/-- The start index of update row `e` on the row axis: the scatter index `idx[e, 0]` read signed. -/
theorem rows_start0 {N C E w : Nat} (d : ScatterDims ⟨2, ![N, C]⟩ ⟨2, ![E, 1]⟩ ⟨2, ![E, C]⟩)
    (h1 : d.updateWindowDims = [1]) (h3 : d.scatterDimsToOperandDims = [0]) (h4 : d.indexVectorDim = 1)
    (idx : IVec ⟨2, ![E, 1]⟩ w) (e : Fin E) (c : Fin C) :
    d.start (ix2 e c) idx 0 = (idx (ix2 e (0 : Fin 1))).toInt := by
  obtain ⟨uw, iw, sd, iv, wf⟩ := d
  dsimp only at h1 h3 h4
  subst h1 h3 h4
  unfold ScatterDims.start
  rw [dif_pos (List.mem_singleton.mpr rfl)]
  refine congrArg (fun z : (⟨2, ![E, 1]⟩ : Shape).Idx => (idx z).toInt) ?_
  funext b; refine Fin.ext ?_
  match b with
  | ⟨0, _⟩ => rfl
  | ⟨1, _⟩ => rfl

/-- The column axis is not named by the start index: the window starts at column 0. -/
theorem rows_start1 {N C E w : Nat} (d : ScatterDims ⟨2, ![N, C]⟩ ⟨2, ![E, 1]⟩ ⟨2, ![E, C]⟩)
    (h3 : d.scatterDimsToOperandDims = [0]) (idx : IVec ⟨2, ![E, 1]⟩ w) (j : (⟨2, ![E, C]⟩ : Shape).Idx) :
    d.start j idx 1 = 0 := by
  obtain ⟨uw, iw, sd, iv, wf⟩ := d
  dsimp only at h3
  subst h3
  unfold ScatterDims.start
  rw [dif_neg (show ¬ ((1 : Fin 2) ∈ ([0] : List (Fin 2))) by decide)]

/-- The row axis is inserted: the window has no extent along it. -/
theorem rows_window0 {N C E : Nat} (d : ScatterDims ⟨2, ![N, C]⟩ ⟨2, ![E, 1]⟩ ⟨2, ![E, C]⟩)
    (h2 : d.insertedWindowDims = [0]) (j : (⟨2, ![E, C]⟩ : Shape).Idx) :
    d.window j 0 = 0 := by
  obtain ⟨uw, iw, sd, iv, wf⟩ := d
  dsimp only at h2
  subst h2
  unfold ScatterDims.window
  rw [dif_neg (by simp [ScatterDims.sKept, Shape.kept])]

/-- Along the column axis the window coordinate is the update's column. -/
theorem rows_window1 {N C E : Nat} (d : ScatterDims ⟨2, ![N, C]⟩ ⟨2, ![E, 1]⟩ ⟨2, ![E, C]⟩)
    (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by simp [ScatterDims.sKept, Shape.kept])]
  rfl

/-- Update entry `(e, c)` of a row scatter lands on operand entry `(p, k)` exactly when the start index of row `e`
    is `p` and the columns agree. -/
theorem rows_resultIdx {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (p : Fin N) (k : Fin C) :
    d.resultIdx? (ix2 e c) idx = some (ix2 p k) ↔ (idx (ix2 e (0 : Fin 1))).toInt = (p.val : Int) ∧ c = k := by
  have hs0 := rows_start0 d h1 h3 h4 idx e c
  have hs1 := rows_start1 d h3 idx (ix2 e c)
  have hw0 := rows_window0 d h2 (ix2 e c)
  have hw1 := rows_window1 d h1 h2 e c
  constructor
  · intro h
    unfold ScatterDims.resultIdx? at h
    split at h
    · next hall =>
      have hv := Option.some.inj h
      have v0 : (d.start (ix2 e c) idx 0 + d.window (ix2 e c) 0).toNat = p.val := congrArg Fin.val (congrFun hv 0)
      have v1 : (d.start (ix2 e c) idx 1 + d.window (ix2 e c) 1).toNat = k.val := congrArg Fin.val (congrFun hv 1)
      have h0 := (hall 0).1
      rw [hs0, hw0] at v0 h0
      rw [hs1, hw1] at v1
      exact ⟨by omega, Fin.ext (by omega)⟩
    · exact absurd h (by simp)
  · rintro ⟨ht, rfl⟩
    unfold ScatterDims.resultIdx?
    have hall : ∀ a, 0 ≤ d.start (ix2 e c) idx a + d.window (ix2 e c) a ∧
        d.start (ix2 e c) idx a + d.window (ix2 e c) a < (⟨2, ![N, C]⟩ : Shape).size a := by
      intro a
      match a with
      | ⟨0, _⟩ =>
        have := p.isLt
        show 0 ≤ d.start (ix2 e c) idx 0 + d.window (ix2 e c) 0 ∧ d.start (ix2 e c) idx 0 + d.window (ix2 e c) 0 < (N : Int)
        rw [hs0, hw0, ht]; omega
      | ⟨1, _⟩ =>
        have := c.isLt
        show 0 ≤ d.start (ix2 e c) idx 1 + d.window (ix2 e c) 1 ∧ d.start (ix2 e c) idx 1 + d.window (ix2 e c) 1 < (C : Int)
        rw [hs1, hw1]; omega
    rw [dif_pos hall]
    congr 1; funext a; refine Fin.ext ?_
    match a with
    | ⟨0, _⟩ =>
      show (d.start (ix2 e c) idx 0 + d.window (ix2 e c) 0).toNat = p.val
      rw [hs0, hw0, ht]; omega
    | ⟨1, _⟩ =>
      show (d.start (ix2 e c) idx 1 + d.window (ix2 e c) 1).toNat = c.val
      rw [hs1, hw1]; omega

/-- A row scatter-add at entry `(p, k)`: the operand's entry plus the update entries `(e, k)` of the rows `e` whose
    start index is `p`. -/
theorem scatterAdd_rows_apply {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : (⟨2, ![N, C]⟩ : Shape).Idx → EReal) (idx : IVec ⟨2, ![E, 1]⟩ w)
    (upd : (⟨2, ![E, C]⟩ : Shape).Idx → EReal) (p : Fin N) (k : Fin C) :
    Ideal.hostScatterAdd d x idx upd (ix2 p k)
      = x (ix2 p k) + ∑ e : Fin E, if (idx (ix2 e (0 : Fin 1))).toInt = (p.val : Int) then upd (ix2 e k) else 0 := by
  unfold Ideal.hostScatterAdd
  congr 1
  rw [Finset.sum_filter, sum_idx2]
  refine Finset.sum_congr rfl fun e _ => ?_
  by_cases ht : (idx (ix2 e (0 : Fin 1))).toInt = (p.val : Int)
  · rw [if_pos ht, Finset.sum_eq_single k]
    · rw [if_pos ((rows_resultIdx d h1 h2 h3 h4 idx e k p k).mpr ⟨ht, rfl⟩)]
    · intro c _ hc
      rw [if_neg (fun h => hc ((rows_resultIdx d h1 h2 h3 h4 idx e c p k).mp h).2)]
    · intro h; exact absurd (Finset.mem_univ k) h
  · rw [if_neg ht]
    refine Finset.sum_eq_zero fun c _ => ?_
    rw [if_neg (fun h => ht ((rows_resultIdx d h1 h2 h3 h4 idx e c p k).mp h).1)]

/-! ## The same for a vector: operand [N], scatter indices [E, 1], updates [E] -/

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- Update entry `e` of a vector scatter lands on operand entry `p` exactly when its start index is `p`. -/
theorem elems_resultIdx {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (p : Fin N) :
    d.resultIdx? (ix1 e) idx = some (ix1 p) ↔ (idx (ix2 e (0 : Fin 1))).toInt = (p.val : Int) := by
  have hs0 : d.start (ix1 e) idx 0 = (idx (ix2 e (0 : Fin 1))).toInt := by
    obtain ⟨uw, iw, sd, iv, wf⟩ := d
    dsimp only at h1 h2 h3 h4
    subst h1 h2 h3 h4
    unfold ScatterDims.start
    rw [dif_pos (List.mem_singleton.mpr rfl)]
    refine congrArg (fun z : (⟨2, ![E, 1]⟩ : Shape).Idx => (idx z).toInt) ?_
    funext b; refine Fin.ext ?_
    match b with
    | ⟨0, _⟩ => rfl
    | ⟨1, _⟩ => rfl
  have hw0 : d.window (ix1 e) 0 = 0 := by
    obtain ⟨uw, iw, sd, iv, wf⟩ := d
    dsimp only at h1 h2 h3 h4
    subst h1 h2 h3 h4
    unfold ScatterDims.window
    rw [dif_neg (by simp [ScatterDims.sKept, Shape.kept])]
  constructor
  · intro h
    unfold ScatterDims.resultIdx? at h
    split at h
    · next hall =>
      have hv := Option.some.inj h
      have v0 : (d.start (ix1 e) idx 0 + d.window (ix1 e) 0).toNat = p.val := congrArg Fin.val (congrFun hv 0)
      have h0 := (hall 0).1
      rw [hs0, hw0] at v0 h0
      omega
    · exact absurd h (by simp)
  · intro ht
    unfold ScatterDims.resultIdx?
    have hall : ∀ a, 0 ≤ d.start (ix1 e) idx a + d.window (ix1 e) a ∧
        d.start (ix1 e) idx a + d.window (ix1 e) a < (⟨1, ![N]⟩ : Shape).size a := by
      intro a
      match a with
      | ⟨0, _⟩ =>
        have := p.isLt
        show 0 ≤ d.start (ix1 e) idx 0 + d.window (ix1 e) 0 ∧ d.start (ix1 e) idx 0 + d.window (ix1 e) 0 < (N : Int)
        rw [hs0, hw0, ht]; omega
    rw [dif_pos hall]
    congr 1; funext a; refine Fin.ext ?_
    match a with
    | ⟨0, _⟩ =>
      show (d.start (ix1 e) idx 0 + d.window (ix1 e) 0).toNat = p.val
      rw [hs0, hw0, ht]; omega

/-- A vector scatter-add at entry `p`: the operand's entry plus the update entries `e` whose start index is `p`. -/
theorem scatterAdd_elems_apply {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : (⟨1, ![N]⟩ : Shape).Idx → EReal) (idx : IVec ⟨2, ![E, 1]⟩ w)
    (upd : (⟨1, ![E]⟩ : Shape).Idx → EReal) (p : Fin N) :
    Ideal.hostScatterAdd d x idx upd (ix1 p)
      = x (ix1 p) + ∑ e : Fin E, if (idx (ix2 e (0 : Fin 1))).toInt = (p.val : Int) then upd (ix1 e) else 0 := by
  unfold Ideal.hostScatterAdd
  congr 1
  rw [Finset.sum_filter, sum_idx1]
  refine Finset.sum_congr rfl fun e _ => ?_
  by_cases ht : (idx (ix2 e (0 : Fin 1))).toInt = (p.val : Int)
  · rw [if_pos ht, if_pos ((elems_resultIdx d h1 h2 h3 h4 idx e p).mpr ht)]
  · rw [if_neg ht, if_neg (fun h => ht ((elems_resultIdx d h1 h2 h3 h4 idx e p).mp h))]

end Cert.LibScatterAddRows

end
-- ==== Proof.LibDegreeNorm.lean ====
/-
  The degree normaliser is a non-negative real.

  A node's degree is a segment sum of ones over the edges that land on it: zero plus a finite sum of terms each 0 or 1,
  hence a non-negative real. The normaliser is 0 where the degree is not positive and the inverse square root of the
  degree where it is; the inverse square root of a positive real is the inverse of its real square root. Either way the
  normaliser is a real number and is not negative.
-/
import Mathlib
import proofs.«146426_j18915035972100_2_alg».proof.Proof.LibScatterAddRows
import proofs.«146426_j18915035972100_2_alg».proof.Proof.LibRealMask

open scoped BigOperators

namespace Cert.LibDegreeNorm

open Idealize.ShloMosaic Idealize.ShloMosaic.ValueIdx

/-- A finite sum of terms each 0 or 1 is a non-negative real. -/
theorem sum_zero_one {ι : Type*} (s : Finset ι) (f : ι → EReal) (hf : ∀ i, f i = 0 ∨ f i = 1) :
    ∃ r : ℝ, 0 ≤ r ∧ ∑ i ∈ s, f i = (r : EReal) := by
  classical
  induction s using Finset.induction_on with
  | empty => exact ⟨0, le_refl _, by simp⟩
  | insert a s ha ih =>
    obtain ⟨r, hr, e⟩ := ih
    rw [Finset.sum_insert ha, e]
    rcases hf a with h | h
    · exact ⟨r, hr, by rw [h, zero_add]⟩
    · refine ⟨1 + r, by positivity, ?_⟩
      rw [h, EReal.coe_add, EReal.coe_one]

/-- The normaliser of a degree that is a non-negative real: 0, or the inverse of a real square root. -/
theorem select_rsqrt (r : ℝ) (hr : 0 ≤ r) :
    0 ≤ Scalar.select (Ideal.cmp .ogt (r : EReal) 0) (Ideal.rsqrt (r : EReal)) (0 : EReal)
    ∧ Scalar.select (Ideal.cmp .ogt (r : EReal) 0) (Ideal.rsqrt (r : EReal)) (0 : EReal) ≠ ⊤ := by
  have hc : Ideal.cmp .ogt (r : EReal) 0 = BitVec.ofBool (decide ((0 : ℝ) < r)) := by
    rw [← EReal.coe_zero]; exact LibRealMask.cmp_ogt_coe r 0
  rw [hc, LibRealMask.sel_bool]
  by_cases h : (0 : ℝ) < r
  · rw [if_pos (decide_eq_true h), LibRealMask.rsqrt_coe r h]
    exact ⟨EReal.coe_nonneg.mpr (inv_nonneg.mpr (Real.sqrt_nonneg r)), EReal.coe_ne_top _⟩
  · rw [if_neg (by simpa using h)]
    exact ⟨le_refl _, EReal.zero_ne_top⟩

/-- The normaliser at node `p`, from the degree as a segment sum of ones into zeros. -/
theorem dinv_entry {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (z : (⟨1, ![N]⟩ : Shape).Idx → EReal) (hz : ∀ j, z j = 0)
    (dst : IVec ⟨2, ![E, 1]⟩ w) (ones : (⟨1, ![E]⟩ : Shape).Idx → EReal) (hones : ∀ j, ones j = 1) (p : Fin N) :
    0 ≤ Scalar.select (Ideal.cmp .ogt (Ideal.hostScatterAdd d z dst ones (ix1 p)) 0)
          (Ideal.rsqrt (Ideal.hostScatterAdd d z dst ones (ix1 p))) (0 : EReal)
    ∧ Scalar.select (Ideal.cmp .ogt (Ideal.hostScatterAdd d z dst ones (ix1 p)) 0)
          (Ideal.rsqrt (Ideal.hostScatterAdd d z dst ones (ix1 p))) (0 : EReal) ≠ ⊤ := by
  rw [LibScatterAddRows.scatterAdd_elems_apply d h1 h2 h3 h4, hz, zero_add]
  obtain ⟨r, hr, e⟩ := sum_zero_one Finset.univ
    (fun e : Fin E => if (dst (ix2 e (0 : Fin 1))).toInt = (p.val : Int) then ones (ix1 e) else 0)
    (fun e => by by_cases h : (dst (ix2 e (0 : Fin 1))).toInt = (p.val : Int)
                 · exact Or.inr (by rw [if_pos h, hones])
                 · exact Or.inl (by rw [if_neg h]))
  rw [e]
  exact select_rsqrt r hr

end Cert.LibDegreeNorm
-- ==== Proof.KRead.lean ====
/-
  The host-side arrays of the idealized kernel, read at an entry.

  An index vector written as a column reads, at (e, 0), the vector's entry e; the wrapped column reads that entry moved
  up by the number of rows N when it is negative. An index that is a row number p is therefore the row the gather
  takes. The normaliser written as a column reads the normaliser; the normaliser is a non-negative real at every node,
  being 0 or the inverse square root of a degree that is a segment sum of ones into zeros. A segment sum of gathered rows
  is the accumulating scatter of an update table whose row e is the table's row at the wrapped source of e, into a table
  of zeros. The result at (i, c) is the normaliser at i times the second segment sum at (i, c), plus the bias at c; the
  bias written as one row reads the bias.
-/
import proofs.«146426_j18915035972100_2_alg».proof.Proof.KSpec
import proofs.«146426_j18915035972100_2_alg».proof.Proof.LibWrapRow
import proofs.«146426_j18915035972100_2_alg».proof.Proof.LibDegreeNorm
import proofs.«146426_j18915035972100_2_alg».proof.Proof.LibGatherRows
import proofs.«146426_j18915035972100_2_alg».proof.Proof.LibColumn
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Read

open Cert.KernelIdeal Cert.KernelIdeal.Gen Cert.KernelIdeal.Stretch
open Idealize.ShloMosaic Idealize.ShloMosaic.ValueIdx

/-- The tables have at least one row. -/
theorem N_pos : 0 < 100000 := by decide

/-! ## Index columns -/

/-- A vector written as a column reads, at (e, 0), the vector's entry e. -/
theorem col_apply {α : Type} (v : S1700000.Idx → α) (e : Fin 1700000) :
    broadcastInDim S1700000x1 ![0] bcast_S1700000_S1700000x1_0 v (ix2 e (0 : Fin 1)) = v (ix1 e) := by
  refine broadcastInDim_apply _ _ v (ix2 e (0 : Fin 1)) (ix1 e) fun a => ?_
  match a with
  | ⟨0, _⟩ =>
    show e.val = if (1700000 : Nat) = 1 then 0 else e.val
    exact (if_neg (by decide)).symm

theorem colOf_apply (v : IVec S1700000 32) (e : Fin 1700000) : colOf v (ix2 e (0 : Fin 1)) = v (ix1 e) := by
  unfold colOf
  exact col_apply v e

/-- The wrapped column reads, at (e, 0), entry e moved up by N when it is negative. -/
theorem wrapColOf_apply (v : IVec S1700000 32) (e : Fin 1700000) :
    wrapColOf v (ix2 e (0 : Fin 1))
      = Scalar.select (IntOp.cmpi .slt (v (ix1 e)) 0#32) (IntOp.addi (v (ix1 e)) 100000#32) (v (ix1 e)) := by
  unfold wrapColOf
  refine (col_apply _ e).trans ?_
  rfl

/-- An index that is a row number is the row the gather takes. -/
theorem hit_row (d : IVec S1700000 32) (e : Fin 1700000) (p : Fin 100000)
    (h : (colOf d (ix2 e (0 : Fin 1))).toInt = (p.val : Int)) : LibGatherRows.row N_pos (wrapColOf d) e = p := by
  rw [colOf_apply] at h
  exact Cert.LibWrapRow.row_of_hit N_pos (wrapColOf d) (d (ix1 e)) (IntOp.addi (d (ix1 e)) 100000#32) e (wrapColOf_apply d e) p h

/-! ## The normaliser -/

/-- The normaliser written as a column reads the normaliser. -/
theorem dinvCol_apply (d : IVec S1700000 32) (r : Fin 100000) : dinvColOf d (ix2 r (0 : Fin 1)) = dinvOf d (ix1 r) := by
  unfold dinvColOf
  exact shapeCast_a_a1_apply (dinvOf d) shapeCasts_S100000_S100000x1 r (0 : Fin 1)

/-- The select that defines the normaliser, at a node, over any degree vector: 0 where the degree is not positive, its
    inverse square root where it is. -/
theorem normaliser_apply (g : FVec Ideal S100000 .f32) (p : Fin 100000) :
    select (cmpf (F := Ideal) .ogt g (broadcastInDim S100000 ![] bcast_S_S100000 (constant (F := Ideal) S_ .f32 0x00000000#32)))
        (Host.rsqrt (F := Ideal) g)
        (broadcastInDim S100000 ![] bcast_S_S100000 (id (constant (F := Ideal) S_ .f32 0x00000000#32))) (ix1 p)
      = Scalar.select (Ideal.cmp .ogt (g (ix1 p)) 0) (Ideal.rsqrt (g (ix1 p))) (0 : EReal) := by
  have hr : Host.rsqrt (F := Ideal) g (ix1 p) = Ideal.rsqrt (g (ix1 p)) := rfl
  rw [select_apply, cmpf_apply, Ideal.cmpf_def, hr, broadcastInDim_scalar_apply, broadcastInDim_scalar_apply, id_eq,
    constant_apply, Ideal.ofBits_zero_f32]

/-- The normaliser at a node is a real number and is not negative. -/
theorem dinv_nonneg (d : IVec S1700000 32) (p : Fin 100000) : 0 ≤ dinvOf d (ix1 p) ∧ dinvOf d (ix1 p) ≠ ⊤ := by
  have hzero : ∀ j : S100000.Idx,
      broadcastInDim S100000 ![] bcast_S_S100000 (constant (F := Ideal) S_ .f32 0x00000000#32) j = (0 : EReal) :=
    fun j => Ideal.ofBits_zero_f32
  have hone : ∀ j : S1700000.Idx,
      broadcastInDim S1700000 ![] bcast_S_S1700000 (constant (F := Ideal) S_ .f32 0x3F800000#32) j = (1 : EReal) :=
    fun j => Ideal.ofBits_one_f32
  have hdeg : degOf d = Ideal.hostScatterAdd scatter_S100000_S1700000x1_S1700000_n_0_0_1
      (broadcastInDim S100000 ![] bcast_S_S100000 (constant (F := Ideal) S_ .f32 0x00000000#32)) (colOf d)
      (broadcastInDim S1700000 ![] bcast_S_S1700000 (constant (F := Ideal) S_ .f32 0x3F800000#32)) := rfl
  unfold dinvOf
  rw [normaliser_apply (degOf d) p, hdeg]
  exact Cert.LibDegreeNorm.dinv_entry scatter_S100000_S1700000x1_S1700000_n_0_0_1 rfl rfl rfl rfl _ hzero (colOf d) _ hone p

/-! ## Segment sums of gathered rows -/

/-- The 128-column table of zeros a segment sum starts from. -/
def Z128 : FVec Ideal S100000x128 .f32 :=
  broadcastInDim S100000x128 ![] bcast_S_S100000x128 (constant (F := Ideal) S_ .f32 0x00000000#32)

/-- The update table of a 128-column segment sum: the table's rows at the wrapped sources. -/
def U128 (H : FVec Ideal S100000x128 .bf16) (s : IVec S1700000 32) : FVec Ideal S1700000x128 .f32 :=
  extf .f32 (Host.gather gather_S100000x128_S1700000x1_S1700000x128_1_0_n_n_0_1_1128 H (wrapColOf s)) bitsLt_bf16_f32

theorem raw128_eq (H : FVec Ideal S100000x128 .bf16) (s d : IVec S1700000 32) :
    raw128 H s d = Ideal.hostScatterAdd scatter_S100000x128_S1700000x1_S1700000x128_1_0_0_1 Z128 (colOf d) (U128 H s) := rfl

theorem Z128_apply (j : S100000x128.Idx) : Z128 j = 0 := Ideal.ofBits_zero_f32

/-- Row e of the update table is the table's row at the wrapped source of e. -/
theorem U128_apply (H : FVec Ideal S100000x128 .bf16) (s : IVec S1700000 32) (e : Fin 1700000) (k : Fin 128) :
    U128 H s (ix2 e k) = H (ix2 (LibGatherRows.row N_pos (wrapColOf s) e) k) := by
  unfold U128
  rw [extf_apply]
  exact Cert.LibGatherRows.gather_rows_apply N_pos gather_S100000x128_S1700000x1_S1700000x128_1_0_n_n_0_1_1128
    rfl rfl rfl rfl rfl rfl rfl H (wrapColOf s) e k

/-- The 64-column table of zeros a segment sum starts from. -/
def Z64 : FVec Ideal S100000x64 .f32 :=
  broadcastInDim S100000x64 ![] bcast_S_S100000x64 (constant (F := Ideal) S_ .f32 0x00000000#32)

/-- The update table of a 64-column segment sum: the table's rows at the wrapped sources. -/
def U64 (H : FVec Ideal S100000x64 .bf16) (s : IVec S1700000 32) : FVec Ideal S1700000x64 .f32 :=
  extf .f32 (Host.gather gather_S100000x64_S1700000x1_S1700000x64_1_0_n_n_0_1_164 H (wrapColOf s)) bitsLt_bf16_f32

theorem raw64_eq (H : FVec Ideal S100000x64 .bf16) (s d : IVec S1700000 32) :
    raw64 H s d = Ideal.hostScatterAdd scatter_S100000x64_S1700000x1_S1700000x64_1_0_0_1 Z64 (colOf d) (U64 H s) := rfl

theorem Z64_apply (j : S100000x64.Idx) : Z64 j = 0 := Ideal.ofBits_zero_f32

/-- Row e of the update table is the table's row at the wrapped source of e. -/
theorem U64_apply (H : FVec Ideal S100000x64 .bf16) (s : IVec S1700000 32) (e : Fin 1700000) (k : Fin 64) :
    U64 H s (ix2 e k) = H (ix2 (LibGatherRows.row N_pos (wrapColOf s) e) k) := by
  unfold U64
  rw [extf_apply]
  exact Cert.LibGatherRows.gather_rows_apply N_pos gather_S100000x64_S1700000x1_S1700000x64_1_0_n_n_0_1_164
    rfl rfl rfl rfl rfl rfl rfl H (wrapColOf s) e k

/-! ## The result -/

/-- A column [N, 1] spread over 64 columns reads, at (i, c), the column at (i, 0). -/
theorem spreadCol_apply (x : FVec Ideal S100000x1 .f32) (i : Fin 100000) (c : Fin 64) :
    broadcastInDim S100000x64 ![0, 1] bcast_S100000x1_S100000x64_0_1 x (ix2 i c) = x (ix2 i (0 : Fin 1)) := by
  refine broadcastInDim_apply _ _ x (ix2 i c) (ix2 i (0 : Fin 1)) fun a => ?_
  match a with
  | ⟨0, _⟩ =>
    show i.val = if (100000 : Nat) = 1 then 0 else i.val
    exact (if_neg (by decide)).symm
  | ⟨1, _⟩ => rfl

/-- A row [1, 64] spread over N rows reads, at (i, c), the row at (0, c). -/
theorem spreadRow_apply (x : FVec Ideal S1x64 .f32) (i : Fin 100000) (c : Fin 64) :
    broadcastInDim S100000x64 ![0, 1] bcast_S1x64_S100000x64_0_1 x (ix2 i c) = x (ix2 (0 : Fin 1) c) := by
  refine broadcastInDim_apply _ _ x (ix2 i c) (ix2 (0 : Fin 1) c) fun a => ?_
  match a with
  | ⟨0, _⟩ => rfl
  | ⟨1, _⟩ =>
    show c.val = if (64 : Nat) = 1 then 0 else c.val
    exact (if_neg (by decide)).symm

/-- A vector [64] written as one row reads, at (0, c), the vector's entry c. -/
theorem asRow_apply (x : FVec Ideal S64 .f32) (c : Fin 64) :
    broadcastInDim S1x64 ![1] bcast_S64_S1x64_1 x (ix2 (0 : Fin 1) c) = x (ix1 c) := by
  refine broadcastInDim_apply _ _ x (ix2 (0 : Fin 1) c) (ix1 c) fun a => ?_
  match a with
  | ⟨0, _⟩ =>
    show c.val = if (64 : Nat) = 1 then 0 else c.val
    exact (if_neg (by decide)).symm

/-- The result at (i, c): the normaliser at i times the second segment sum at (i, c), plus the bias at c. -/
theorem outOf_apply (dcol : FVec Ideal S100000x1 .f32) (H : FVec Ideal S100000x64 .bf16) (s d : IVec S1700000 32)
    (b2 : FVec Ideal S64 .f32) (i : Fin 100000) (c : Fin 64) :
    outOf dcol H s d b2 (ix2 i c) = dcol (ix2 i (0 : Fin 1)) * raw64 H s d (ix2 i c) + b2 (ix1 c) := by
  unfold outOf
  rw [addf_apply, mulf_apply, spreadCol_apply, spreadRow_apply, asRow_apply]

/-- The bias written as one row reads, at (0, k), the bias at k. -/
theorem biasRow_apply (b : FVec Ideal S128 .f32) (k : Fin 128) : biasRow b (ix2 (0 : Fin 1) k) = b (ix1 k) := by
  unfold biasRow
  exact shapeCast_a_1a_apply b shapeCasts_S128_S1x128 (0 : Fin 1) k

end Cert.KernelIdeal.Read

end
-- ==== Proof.RefVal.lean ====
/-
  The idealized reference, read at an entry.

  One layer of the reference: the edge weight is dinv[src] · 1 · dinv[dst] (the sources and targets wrapped and clamped
  as the row gathers do), the message of edge e is its weight times row src e of the dense product, the messages are
  segment-summed over the (signed, unclamped) targets, and the bias is added. Each stage is read at an index from the
  stage before it; the gathers read the clamped row, the dense products are sums over the contracted index.
-/
import proofs.«146426_j18915035972100_2_alg».proof.Proof.RefReadP
import proofs.«146426_j18915035972100_2_alg».proof.Proof.LibGatherRows
import Idealize.ShloMosaic.Lib.ValueIdx
import Idealize.ShloMosaic.PureOps.Ideal.Laws

open scoped BigOperators

noncomputable section

namespace Cert.ReferenceIdeal.RefVal

open Cert.ReferenceIdeal Cert.ReferenceIdeal.ReadP
open Idealize.ShloMosaic Idealize.ShloMosaic.ValueIdx

theorem N_pos : 0 < 100000 := by decide

/-- The literal 1.0 is the number one. -/
theorem ofBits_one : Ideal.ofBits .f32 0x3F800000#32 = 1 := by
  simp [Ideal.ofBits, Ideal.ieee, -EReal.coe_mul]; norm_num

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The vector of ones, at an entry. -/
theorem ones_apply (j : S1700000.Idx) : val_main_v7 (F := Ideal) j = 1 := by
  rw [val_main_v7_apply, val_main_cst_apply, Ideal.ofBits_def, ofBits_one]

/-- The edge weight: the normaliser at the wrapped, clamped source, times one, times the normaliser at the wrapped,
    clamped target. -/
theorem weight_apply (e : Fin 1700000) :
    val_main_v30 (F := Ideal) x1 (ix1 e)
      = (val_main_v14 (F := Ideal) x1 (ix1 (LibGatherRows.row N_pos (val_main_v20 (F := Ideal) x1) e)) * val_main_v7 (F := Ideal) (ix1 e))
          * val_main_v14 (F := Ideal) x1 (ix1 (LibGatherRows.row N_pos (val_main_v28 (F := Ideal) x1) e)) := by
  rw [val_main_v30_apply, val_main_v22_apply]
  simp only [Ideal.mulf_def]
  unfold val_main_v21 val_main_v29
  rw [LibGatherRows.gather_elems_apply (N := 100000) (E := 1700000) N_pos gather_S100000_S1700000x1_S1700000_n_0_n_n_0_1_1 rfl rfl rfl rfl rfl rfl rfl,
    LibGatherRows.gather_elems_apply (N := 100000) (E := 1700000) N_pos gather_S100000_S1700000x1_S1700000_n_0_n_n_0_1_1 rfl rfl rfl rfl rfl rfl rfl]

/-! ## Index bookkeeping: the generated index maps at coordinates -/

theorem idx_col_vec128 (e : Fin 1700000) (k : Fin 128) : idx_main_v32 (idx_main_v40 (ix2 e k)) = ix1 e := by
  funext a; apply Fin.ext; match a with | ⟨0, _⟩ => rfl
theorem idx_col_vec64 (e : Fin 1700000) (c : Fin 64) : idx_main_v73 (idx_main_v81 (ix2 e c)) = ix1 e := by
  funext a; apply Fin.ext; match a with | ⟨0, _⟩ => rfl
theorem lidx31 (r : Fin 100000) (k j : Fin 128) : lidx_main_v31 (ix2 r k) j = ix2 r j := by
  funext a; apply Fin.ext; match a with | ⟨0, _⟩ => rfl | ⟨1, _⟩ => rfl
theorem ridx31 (r : Fin 100000) (k j : Fin 128) : ridx_main_v31 (ix2 r k) j = ix2 j k := by
  funext a; apply Fin.ext; match a with | ⟨0, _⟩ => rfl | ⟨1, _⟩ => rfl
theorem lidx72 (r : Fin 100000) (c : Fin 64) (k : Fin 128) : lidx_main_v72 (ix2 r c) k = ix2 r k := by
  funext a; apply Fin.ext; match a with | ⟨0, _⟩ => rfl | ⟨1, _⟩ => rfl
theorem ridx72 (r : Fin 100000) (c : Fin 64) (k : Fin 128) : ridx_main_v72 (ix2 r c) k = ix2 k c := by
  funext a; apply Fin.ext; match a with | ⟨0, _⟩ => rfl | ⟨1, _⟩ => rfl
theorem idx_bias128 (r : Fin 100000) (k : Fin 128) : idx_main_v45 (idx_main_v46 (ix2 r k)) = ix1 k := by
  funext a; apply Fin.ext; match a with | ⟨0, _⟩ => rfl
theorem idx_bias64 (r : Fin 100000) (c : Fin 64) : idx_main_v86 (idx_main_v87 (ix2 r c)) = ix1 c := by
  funext a; apply Fin.ext; match a with | ⟨0, _⟩ => rfl

/-! ## Layer 1 -/

/-- The first dense product at an entry. -/
theorem dense1_apply (r : Fin 100000) (k : Fin 128) :
    val_main_v31 (F := Ideal) x0 x2 (ix2 r k) = ∑ j : Fin 128, x0 (ix2 r j) * x2 (ix2 j k) := by
  rw [val_main_v31_apply]
  simp only [lidx31, ridx31]

/-- The first layer's message of edge e: its weight times the source's row of the dense product. -/
theorem msg1_apply (e : Fin 1700000) (k : Fin 128) :
    val_main_v41 (F := Ideal) x0 x1 x2 (ix2 e k)
      = val_main_v30 (F := Ideal) x1 (ix1 e)
          * val_main_v31 (F := Ideal) x0 x2 (ix2 (LibGatherRows.row N_pos (val_main_v38 (F := Ideal) x1) e) k) := by
  rw [val_main_v41_apply, val_main_v40_apply, val_main_v32_apply, idx_col_vec128]
  simp only [Ideal.mulf_def]
  unfold val_main_v39
  rw [LibGatherRows.gather_rows_apply (N := 100000) (C := 128) (E := 1700000) N_pos gather_S100000x128_S1700000x1_S1700000x128_1_0_n_n_0_1_1128 rfl rfl rfl rfl rfl rfl rfl]

/-- The zero table the first segment sum starts from. -/
theorem zeros1_apply (j : S100000x128.Idx) : val_main_v42 (F := Ideal) j = 0 := by
  rw [val_main_v42_apply, val_main_cst_8_apply, Ideal.ofBits_def, Ideal.ofBits_zero_f32]

/-- The first layer's output after the bias and the clamp at zero. -/
theorem relu1_apply (r : Fin 100000) (k : Fin 128) :
    val_main_v48 (F := Ideal) x0 x1 x2 x3 (ix2 r k)
      = max (val_main_v44 (F := Ideal) x0 x1 x2 (ix2 r k) + x3 (ix1 k)) 0 := by
  rw [val_main_v48_apply, val_main_v47_apply, val_main_v46_apply, val_main_v45_apply, idx_bias128,
    val_main_call1_v0_apply, val_main_call1_cst_apply]
  simp only [Ideal.maximumf_def, Ideal.addf_def, Ideal.ofBits_def, Ideal.ofBits_zero_f32]

/-! ## Layer 2 -/

/-- The second dense product at an entry. -/
theorem dense2_apply (r : Fin 100000) (c : Fin 64) :
    val_main_v72 (F := Ideal) x0 x1 x2 x3 x4 (ix2 r c)
      = ∑ k : Fin 128, val_main_v48 (F := Ideal) x0 x1 x2 x3 (ix2 r k) * x4 (ix2 k c) := by
  rw [val_main_v72_apply]
  simp only [lidx72, ridx72]

/-- The second layer's message of edge e. -/
theorem msg2_apply (e : Fin 1700000) (c : Fin 64) :
    val_main_v82 (F := Ideal) x0 x1 x2 x3 x4 (ix2 e c)
      = val_main_v71 (F := Ideal) x1 (ix1 e)
          * val_main_v72 (F := Ideal) x0 x1 x2 x3 x4 (ix2 (LibGatherRows.row N_pos (val_main_v79 (F := Ideal) x1) e) c) := by
  rw [val_main_v82_apply, val_main_v81_apply, val_main_v73_apply, idx_col_vec64]
  simp only [Ideal.mulf_def]
  unfold val_main_v80
  rw [LibGatherRows.gather_rows_apply (N := 100000) (C := 64) (E := 1700000) N_pos gather_S100000x64_S1700000x1_S1700000x64_1_0_n_n_0_1_164 rfl rfl rfl rfl rfl rfl rfl]

/-- The zero table the second segment sum starts from. -/
theorem zeros2_apply (j : S100000x64.Idx) : val_main_v83 (F := Ideal) j = 0 := by
  rw [val_main_v83_apply, val_main_cst_18_apply, Ideal.ofBits_def, Ideal.ofBits_zero_f32]

/-- The result: the second segment sum plus the bias. -/
theorem out_apply (i : Fin 100000) (c : Fin 64) :
    val_main_v88 (F := Ideal) x0 x1 x2 x3 x4 x5 (ix2 i c)
      = val_main_v85 (F := Ideal) x0 x1 x2 x3 x4 (ix2 i c) + x5 (ix1 c) := by
  rw [val_main_v88_apply, val_main_v87_apply, val_main_v86_apply, idx_bias64]
  simp only [Ideal.addf_def]

/-! ## The second layer recomputes the first layer's index vectors and normaliser: the same terms -/

theorem weight2_eq : val_main_v71 (F := Ideal) x1 = val_main_v30 (F := Ideal) x1 := rfl
theorem src2_eq : val_main_v79 (F := Ideal) x1 = val_main_v20 (F := Ideal) x1 := rfl
theorem src1_eq : val_main_v38 (F := Ideal) x1 = val_main_v20 (F := Ideal) x1 := rfl
theorem dst2_eq : val_main_v84 (F := Ideal) x1 = val_main_v9 (F := Ideal) x1 := rfl
theorem dst1_eq : val_main_v43 (F := Ideal) x1 = val_main_v9 (F := Ideal) x1 := rfl

end Cert.ReferenceIdeal.RefVal

end
-- ==== Proof.LibNonnegFactor.lean ====
/-
  The one algebraic law of the graph convolution, on the extended reals.

  A node's value is the degree-normalised sum of its in-neighbours' rows: with a normaliser `dv` (one number per node),
  edges `e` with a source node `S e`, and "edge `e` lands on node `p`" a decidable relation, one side scales the rows
  before they are summed and scales the sum once more afterwards,
      dv p · Σ_{e lands on p} (M (S e) · dv (S e)),
  the other forms the edge weight dv (S e) · 1 · dv (D e) first, where `D e` is the node edge `e` lands on,
      Σ_{e lands on p} (dv (S e) · 1 · dv (D e)) · M (S e).
  On the extended reals a product distributes over a sum when the factor is a non-negative real, whatever the terms are
  (infinite ones included), so the two agree as soon as `dv p` is a non-negative real; commutativity and associativity of
  the product do the rest, and nothing is asked of `M`.
-/
import Mathlib

open scoped BigOperators

namespace Cert.LibNonnegFactor

/-- A non-negative real factor distributes over a finite sum of extended reals. -/
theorem mul_sum_of_nonneg_of_ne_top {ι : Type*} (s : Finset ι) (x : EReal) (h0 : 0 ≤ x) (ht : x ≠ ⊤) (f : ι → EReal) :
    x * ∑ i ∈ s, f i = ∑ i ∈ s, x * f i := by
  classical
  induction s using Finset.induction_on with
  | empty => simp
  | insert a s ha ih =>
    rw [Finset.sum_insert ha, Finset.sum_insert ha, EReal.left_distrib_of_nonneg_of_ne_top h0 ht, ih]

/-- The graph convolution's law: scaling the rows by the source's normaliser before the sum and the sum by the target's
    afterwards is summing the rows under the edge weights, when the target's normaliser is a non-negative real. -/
theorem layer {E N : ℕ} (hit : Fin E → Fin N → Prop) [∀ e p, Decidable (hit e p)] (S D : Fin E → Fin N)
    (hD : ∀ e p, hit e p → D e = p) (dv : Fin N → EReal) (M : Fin N → EReal) (one : EReal) (h1 : one = 1)
    (p : Fin N) (h0 : 0 ≤ dv p) (ht : dv p ≠ ⊤) :
    dv p * (0 + ∑ e : Fin E, if hit e p then M (S e) * dv (S e) else 0)
      = 0 + ∑ e : Fin E, if hit e p then (dv (S e) * one * dv (D e)) * M (S e) else 0 := by
  rw [zero_add, zero_add, mul_sum_of_nonneg_of_ne_top _ _ h0 ht]
  refine Finset.sum_congr rfl fun e _ => ?_
  by_cases h : hit e p
  · rw [if_pos h, if_pos h, hD e p h, h1, mul_one]
    rw [mul_comm (M (S e)) (dv (S e)), ← mul_assoc, mul_comm (dv p) (dv (S e))]
  · rw [if_neg h, if_neg h, mul_zero]

end Cert.LibNonnegFactor
-- ==== Proof.LibConvLayer.lean ====
/-
  One graph-convolution layer, read at an entry of its scatter-add.

  Two segment sums over the same edge list land the edges' rows on their target nodes. One takes rows already scaled by
  their source's normaliser, `M (S e) c · dv (S e)`, and its sum is scaled by the target's normaliser afterwards; the
  other takes rows under the edge weight `dv (S e) · 1 · dv (D e)`. An edge lands on node `p` exactly when its (signed,
  unclamped) target index is `p`, and then the node `D e` its weight reads is `p`. So entry (i, c) of the first, times
  `dv i`, is entry (i, c) of the second, when `dv i` is a non-negative real. Stated for any two records with a segment
  sum's dimension numbers, so that the two programs' own records both fit.
-/
import proofs.«146426_j18915035972100_2_alg».proof.Proof.LibNonnegFactor
import proofs.«146426_j18915035972100_2_alg».proof.Proof.LibScatterAddRows

open scoped BigOperators

namespace Cert.LibConvLayer

open Idealize.ShloMosaic Idealize.ShloMosaic.ValueIdx

theorem scatter_layer {N C E w : Nat} (dK dR : ScatterDims ⟨2, ![N, C]⟩ ⟨2, ![E, 1]⟩ ⟨2, ![E, C]⟩)
    (k1 : dK.updateWindowDims = [1]) (k2 : dK.insertedWindowDims = [0]) (k3 : dK.scatterDimsToOperandDims = [0])
    (k4 : dK.indexVectorDim = 1)
    (r1 : dR.updateWindowDims = [1]) (r2 : dR.insertedWindowDims = [0]) (r3 : dR.scatterDimsToOperandDims = [0])
    (r4 : dR.indexVectorDim = 1)
    (zK zR : (⟨2, ![N, C]⟩ : Shape).Idx → EReal) (hzK : ∀ j, zK j = 0) (hzR : ∀ j, zR j = 0)
    (dst : IVec ⟨2, ![E, 1]⟩ w) (S D : Fin E → Fin N)
    (hD : ∀ e p, (dst (ix2 e (0 : Fin 1))).toInt = ((p : Fin N).val : Int) → D e = p)
    (dv : Fin N → EReal) (M : Fin N → Fin C → EReal) (one : EReal) (h1 : one = 1)
    (updK updR : (⟨2, ![E, C]⟩ : Shape).Idx → EReal)
    (hK : ∀ e c, updK (ix2 e c) = M (S e) c * dv (S e))
    (hR : ∀ e c, updR (ix2 e c) = (dv (S e) * one * dv (D e)) * M (S e) c)
    (i : Fin N) (c : Fin C) (h0 : 0 ≤ dv i) (ht : dv i ≠ ⊤) :
    dv i * Ideal.hostScatterAdd dK zK dst updK (ix2 i c) = Ideal.hostScatterAdd dR zR dst updR (ix2 i c) := by
  rw [LibScatterAddRows.scatterAdd_rows_apply dK k1 k2 k3 k4, LibScatterAddRows.scatterAdd_rows_apply dR r1 r2 r3 r4,
    hzK, hzR]
  simp only [hK, hR]
  exact LibNonnegFactor.layer (fun e p => (dst (ix2 e (0 : Fin 1))).toInt = ((p : Fin N).val : Int)) S D hD dv (fun p => M p c)
    one h1 i h0 ht

end Cert.LibConvLayer
-- ==== Proof.Bridge.lean ====
/-
  The two programs compute the same table.

  Both are two graph-convolution layers over the same edge list with the same degree normaliser dinv. The kernel scales
  the rows of x·W by dinv before the segment sum and the sum by dinv after it (the second scaling fused into the next
  call, or done by the host at the end); the reference forms the edge weight dinv[src]·1·dinv[dst] and scales each
  message. Since dinv is a non-negative real, a factor dinv[i] distributes over the segment sum into row i, and an edge
  that lands on row i has dinv[dst] = dinv[i]: the layers agree entry by entry. The first layer's outputs then agree
  after the bias and the clamp at zero, hence so do the second dense products, and the second layer agrees by the same
  law; the final bias is the same term on both sides.
-/
import proofs.«146426_j18915035972100_2_alg».proof.Proof.KSpec
import proofs.«146426_j18915035972100_2_alg».proof.Proof.KRead
import proofs.«146426_j18915035972100_2_alg».proof.Proof.RefVal
import proofs.«146426_j18915035972100_2_alg».proof.Proof.LibConvLayer

open scoped BigOperators

noncomputable section

namespace Cert.Bridge

open Idealize.ShloMosaic Idealize.ShloMosaic.ValueIdx
open Cert.KernelIdeal.Stretch Cert.KernelIdeal.Read
open Cert.ReferenceIdeal.ReadP Cert.ReferenceIdeal.RefVal

variable (a0 : FVec Ideal Cert.KernelIdeal.S100000x128 .f32) (a1 : IVec Cert.KernelIdeal.S2x1600000 32)
  (a2 : FVec Ideal Cert.KernelIdeal.S128x128 .f32) (a3 : FVec Ideal Cert.KernelIdeal.S128 .f32)
  (a4 : FVec Ideal Cert.KernelIdeal.S128x64 .f32) (a5 : FVec Ideal Cert.KernelIdeal.S64 .f32)
  (H1 : FVec Ideal Cert.KernelIdeal.S100000x128 .bf16) (H2 : FVec Ideal Cert.KernelIdeal.S100000x64 .bf16)

/-! ## The reference's index vectors and normaliser are the kernel's terms -/

theorem ref_dst : val_main_v9 (F := Ideal) a1 = colOf (dstOf a1) := rfl
theorem ref_srcw : val_main_v20 (F := Ideal) a1 = wrapColOf (srcOf a1) := rfl
theorem ref_dstw : val_main_v28 (F := Ideal) a1 = wrapColOf (dstOf a1) := rfl
theorem ref_dinv : val_main_v14 (F := Ideal) a1 = dinvOf (dstOf a1) := rfl

/-- The reference's edge weight over the kernel's terms. -/
theorem weight_eq (e : Fin 1700000) :
    val_main_v30 (F := Ideal) a1 (ix1 e)
      = (dinvOf (dstOf a1) (ix1 (LibGatherRows.row Cert.KernelIdeal.Read.N_pos (wrapColOf (srcOf a1)) e)) * 1)
          * dinvOf (dstOf a1) (ix1 (LibGatherRows.row Cert.KernelIdeal.Read.N_pos (wrapColOf (dstOf a1)) e)) := by
  rw [weight_apply, ones_apply, ref_dinv, ref_srcw, ref_dstw]

/-- The host's accumulating scatter on the extended reals is the exact segment sum (the instance's definition). -/
theorem scatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

/-! ## Layer 1 -/

/-- The first layer before the bias: the kernel's segment sum scaled by the normaliser is the reference's. -/
theorem layer1 (hO : Outputs a0 a1 a2 a3 a4 H1 H2) (r : Fin 100000) (k : Fin 128) :
    raw128 H1 (srcOf a1) (dstOf a1) (ix2 r k) * dinvColOf (dstOf a1) (ix2 r (0 : Fin 1))
      = val_main_v44 (F := Ideal) a0 a1 a2 (ix2 r k) := by
  rw [mul_comm, dinvCol_apply, raw128_eq]
  unfold val_main_v44
  rw [dst1_eq, ref_dst]
  have hK : ∀ (e : Fin 1700000) (k : Fin 128), U128 H1 (srcOf a1) (ix2 e k)
      = (∑ j : Fin 128, a0 (ix2 (LibGatherRows.row Cert.KernelIdeal.Read.N_pos (wrapColOf (srcOf a1)) e) j) * a2 (ix2 j k)) * dinvOf (dstOf a1) (ix1 (LibGatherRows.row Cert.KernelIdeal.Read.N_pos (wrapColOf (srcOf a1)) e)) := by
    intro e k
    rw [U128_apply, hO.h1, dinvCol_apply]
  have hR : ∀ (e : Fin 1700000) (k : Fin 128), val_main_v41 (F := Ideal) a0 a1 a2 (ix2 e k)
      = (dinvOf (dstOf a1) (ix1 (LibGatherRows.row Cert.KernelIdeal.Read.N_pos (wrapColOf (srcOf a1)) e)) * 1 * dinvOf (dstOf a1) (ix1 (LibGatherRows.row Cert.KernelIdeal.Read.N_pos (wrapColOf (dstOf a1)) e)))
        * (∑ j : Fin 128, a0 (ix2 (LibGatherRows.row Cert.KernelIdeal.Read.N_pos (wrapColOf (srcOf a1)) e) j) * a2 (ix2 j k)) := by
    intro e k
    rw [msg1_apply, weight_eq, dense1_apply, src1_eq, ref_srcw]
  have key := LibConvLayer.scatter_layer (N := 100000) (C := 128) (E := 1700000) (w := 32)
    Cert.KernelIdeal.scatter_S100000x128_S1700000x1_S1700000x128_1_0_0_1
    Cert.ReferenceIdeal.scatter_S100000x128_S1700000x1_S1700000x128_1_0_0_1
    rfl rfl rfl rfl rfl rfl rfl rfl Z128 (val_main_v42 (F := Ideal)) Z128_apply zeros1_apply (colOf (dstOf a1))
    (fun e => (LibGatherRows.row Cert.KernelIdeal.Read.N_pos (wrapColOf (srcOf a1)) e))
    (fun e => (LibGatherRows.row Cert.KernelIdeal.Read.N_pos (wrapColOf (dstOf a1)) e))
    (fun e p h => hit_row (dstOf a1) e p h)
    (fun p => dinvOf (dstOf a1) (ix1 p))
    (fun p k => ∑ j : Fin 128, a0 (ix2 p j) * a2 (ix2 j k)) 1 rfl
    (U128 H1 (srcOf a1)) (val_main_v41 (F := Ideal) a0 a1 a2) hK hR r k
    (dinv_nonneg (dstOf a1) r).1 (dinv_nonneg (dstOf a1) r).2
  exact key.trans (congrFun (scatterAdd_ideal Cert.ReferenceIdeal.scatter_S100000x128_S1700000x1_S1700000x128_1_0_0_1
    (val_main_v42 (F := Ideal)) (colOf (dstOf a1)) (val_main_v41 (F := Ideal) a0 a1 a2)).symm (ix2 r k))

/-- The first layer after the bias and the clamp at zero. -/
theorem relu_eq (hO : Outputs a0 a1 a2 a3 a4 H1 H2) (r : Fin 100000) (k : Fin 128) :
    max (raw128 H1 (srcOf a1) (dstOf a1) (ix2 r k) * dinvColOf (dstOf a1) (ix2 r (0 : Fin 1))
        + biasRow a3 (ix2 (0 : Fin 1) k)) 0
      = val_main_v48 (F := Ideal) a0 a1 a2 a3 (ix2 r k) := by
  rw [relu1_apply, biasRow_apply, layer1 a0 a1 a2 a3 a4 H1 H2 hO]

/-! ## Layer 2 and the result -/

/-- The two programs' results agree: the second layer by the same law, over the first layer's agreement; the final bias
    is the same term on both sides. -/
theorem result_eq (hO : Outputs a0 a1 a2 a3 a4 H1 H2) :
    outOf (dinvColOf (dstOf a1)) H2 (srcOf a1) (dstOf a1) a5 = val_main_v88 (F := Ideal) a0 a1 a2 a3 a4 a5 := by
  funext idx
  obtain ⟨i, c, rfl⟩ : ∃ (i : Fin 100000) (c : Fin 64), idx = ix2 i c := ⟨idx 0, idx 1, eq_ix2 idx⟩
  rw [outOf_apply, out_apply]
  refine congrArg (fun x => x + a5 (ix1 c)) ?_
  rw [dinvCol_apply, raw64_eq]
  unfold val_main_v85
  rw [dst2_eq, ref_dst]
  have hK : ∀ (e : Fin 1700000) (c : Fin 64), U64 H2 (srcOf a1) (ix2 e c)
      = (∑ k : Fin 128, val_main_v48 (F := Ideal) a0 a1 a2 a3 (ix2 (LibGatherRows.row Cert.KernelIdeal.Read.N_pos (wrapColOf (srcOf a1)) e) k) * a4 (ix2 k c))
        * dinvOf (dstOf a1) (ix1 (LibGatherRows.row Cert.KernelIdeal.Read.N_pos (wrapColOf (srcOf a1)) e)) := by
    intro e c
    rw [U64_apply, hO.h2]
    simp only [relu_eq a0 a1 a2 a3 a4 H1 H2 hO]
    rw [dinvCol_apply]
  have hR : ∀ (e : Fin 1700000) (c : Fin 64), val_main_v82 (F := Ideal) a0 a1 a2 a3 a4 (ix2 e c)
      = (dinvOf (dstOf a1) (ix1 (LibGatherRows.row Cert.KernelIdeal.Read.N_pos (wrapColOf (srcOf a1)) e)) * 1 * dinvOf (dstOf a1) (ix1 (LibGatherRows.row Cert.KernelIdeal.Read.N_pos (wrapColOf (dstOf a1)) e)))
        * (∑ k : Fin 128, val_main_v48 (F := Ideal) a0 a1 a2 a3 (ix2 (LibGatherRows.row Cert.KernelIdeal.Read.N_pos (wrapColOf (srcOf a1)) e) k) * a4 (ix2 k c)) := by
    intro e c
    rw [msg2_apply, weight2_eq, weight_eq, dense2_apply, src2_eq, ref_srcw]
  have key := LibConvLayer.scatter_layer (N := 100000) (C := 64) (E := 1700000) (w := 32)
    Cert.KernelIdeal.scatter_S100000x64_S1700000x1_S1700000x64_1_0_0_1
    Cert.ReferenceIdeal.scatter_S100000x64_S1700000x1_S1700000x64_1_0_0_1
    rfl rfl rfl rfl rfl rfl rfl rfl Z64 (val_main_v83 (F := Ideal)) Z64_apply zeros2_apply (colOf (dstOf a1))
    (fun e => (LibGatherRows.row Cert.KernelIdeal.Read.N_pos (wrapColOf (srcOf a1)) e))
    (fun e => (LibGatherRows.row Cert.KernelIdeal.Read.N_pos (wrapColOf (dstOf a1)) e))
    (fun e p h => hit_row (dstOf a1) e p h)
    (fun p => dinvOf (dstOf a1) (ix1 p))
    (fun p c => ∑ k : Fin 128, val_main_v48 (F := Ideal) a0 a1 a2 a3 (ix2 p k) * a4 (ix2 k c)) 1 rfl
    (U64 H2 (srcOf a1)) (val_main_v82 (F := Ideal) a0 a1 a2 a3 a4) hK hR i c
    (dinv_nonneg (dstOf a1) i).1 (dinv_nonneg (dstOf a1) i).2
  exact key.trans (congrFun (scatterAdd_ideal Cert.ReferenceIdeal.scatter_S100000x64_S1700000x1_S1700000x64_1_0_0_1
    (val_main_v83 (F := Ideal)) (colOf (dstOf a1)) (val_main_v82 (F := Ideal) a0 a1 a2 a3 a4)).symm (ix2 i c))

end Cert.Bridge

end
-- ==== Proof.lean ====
/- The proof of `Cert.Claim`: a two-layer graph convolution as two pallas_calls with host gathers and segment sums between
   them, against the plain jnp reference, equal on the extended reals.

   The three frames: both kernels' runs terminate with the arguments unchanged (the generated frames), and so does the
   reference's (its run with the result dropped). Nothing was rewritten by the ideal pass, so `preserves` is trivial.
   `algebraic`: the idealized kernel's run ends with the result array at the fold of its segments over the launch memory
   (Proof/KRun.lean); read back (Proof/KHost.lean, KHost2.lean, KValue.lean, with the two calls' outputs entry by entry from
   Proof/Region0.lean and Region1.lean) it is `outOf` of the arguments; the reference's run ends at its composed term; and
   the two are one table (Proof/Bridge.lean): the degree normaliser is a non-negative real, so scaling a node's segment sum
   by it is scaling each message, and an edge that lands on node i has that node's normaliser as its target factor. -/
import proofs.«146426_j18915035972100_2_alg».proof.Defs
import proofs.«146426_j18915035972100_2_alg».proof.Proof.Gen.Kernel
import proofs.«146426_j18915035972100_2_alg».proof.Proof.Gen.Kernel.Frame
import proofs.«146426_j18915035972100_2_alg».proof.Proof.Gen.KernelIdeal
import proofs.«146426_j18915035972100_2_alg».proof.Proof.Gen.KernelIdeal.Frame
import proofs.«146426_j18915035972100_2_alg».proof.Proof.Gen.ReferenceIdeal
import proofs.«146426_j18915035972100_2_alg».proof.Proof.Gen.Pre_finite_inputs
import proofs.«146426_j18915035972100_2_alg».proof.Proof.RefReadP
import proofs.«146426_j18915035972100_2_alg».proof.Proof.KRun
import proofs.«146426_j18915035972100_2_alg».proof.Proof.KValue
import proofs.«146426_j18915035972100_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments both idealized programs end with the same result table. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W7 m ρ c (Proc.devRef .tc Cert.KernelIdeal.main_v45), Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v88_eq, (hagree c).1, (hagree c).2.1, (hagree c).2.2.1, (hagree c).2.2.2.1,
    (hagree c).2.2.2.2.1, (hagree c).2.2.2.2.2]
  obtain ⟨H1, H2, hO, hK⟩ := Cert.KernelIdeal.Stretch.kernel_value m ρ c
  exact (hK.trans (Cert.Bridge.result_eq _ _ _ _ _ _ H1 H2 hO)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
